-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S3x128x128 .f32) (main_arg3 : FVec F S3x128 .f32) (main_arg4 : FVec F S128x64 .f32) (main_arg5 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S2000x128 : Shape := ⟨2, ![2000, 128]⟩
abbrev S850000x128 : Shape := ⟨2, ![850000, 128]⟩
abbrev S1x128 : Shape := ⟨2, ![1, 128]⟩
abbrev S128 : Shape := ⟨1, ![128]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 117
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S3x128x128, .f32⟩
  | .hbm, ⟨3, _⟩ => ⟨S3x128, .f32⟩
  | .hbm, ⟨4, _⟩ => ⟨S128x64, .f32⟩
  | .hbm, ⟨5, _⟩ => ⟨S64, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S1x128x128, .f32⟩
  | .hbm, ⟨47, _⟩ => ⟨S128x128, .f32⟩
  | .hbm, ⟨48, _⟩ => ⟨S50000x128, .f32⟩
  | .hbm, ⟨49, _⟩ => ⟨S_, .i32⟩
  | .hbm, ⟨50, _⟩ => ⟨S850000, .i32⟩
  | .hbm, ⟨51, _⟩ => ⟨S850000, .i1⟩
  | .hbm, ⟨52, _⟩ => ⟨S_, .i32⟩
  | .hbm, ⟨53, _⟩ => ⟨S850000, .i32⟩
  | .hbm, ⟨54, _⟩ => ⟨S850000, .i32⟩
  | .hbm, ⟨55, _⟩ => ⟨S850000, .i32⟩
  | .hbm, ⟨56, _⟩ => ⟨S850000x1, .i32⟩
  | .hbm, ⟨57, _⟩ => ⟨S850000x128, .f32⟩
  | .hbm, ⟨58, _⟩ => ⟨S850000x1, .f32⟩
  | .hbm, ⟨59, _⟩ => ⟨S850000x128, .f32⟩
  | .hbm, ⟨60, _⟩ => ⟨S850000x128, .f32⟩
  | .hbm, ⟨61, _⟩ => ⟨S_, .f32⟩
  | .hbm, ⟨62, _⟩ => ⟨S50000x128, .f32⟩
  | .hbm, ⟨63, _⟩ => ⟨S850000x1, .i32⟩
  | .hbm, ⟨64, _⟩ => ⟨S50000x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S50000x128, .f32⟩
  | .hbm, ⟨69, _⟩ => ⟨S1x128x128, .f32⟩
  | .hbm, ⟨70, _⟩ => ⟨S128x128, .f32⟩
  | .hbm, ⟨71, _⟩ => ⟨S50000x128, .f32⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x128, .f32⟩
  | .hbm, ⟨81, _⟩ => ⟨S850000x1, .f32⟩
  | .hbm, ⟨82, _⟩ => ⟨S850000x128, .f32⟩
  | .hbm, ⟨83, _⟩ => ⟨S850000x128, .f32⟩
  | .hbm, ⟨84, _⟩ => ⟨S_, .f32⟩
  | .hbm, ⟨85, _⟩ => ⟨S50000x128, .f32⟩
  | .hbm, ⟨86, _⟩ => ⟨S850000x1, .i32⟩
  | .hbm, ⟨87, _⟩ => ⟨S50000x128, .f32⟩
  | .hbm, ⟨88, _⟩ => ⟨S1x128, .f32⟩
  | .hbm, ⟨89, _⟩ => ⟨S128, .f32⟩
  | .hbm, ⟨90, _⟩ => ⟨S1x128, .f32⟩
  | .hbm, ⟨91, _⟩ => ⟨S50000x128, .f32⟩
  | .hbm, ⟨92, _⟩ => ⟨S1x128x128, .f32⟩
  | .hbm, ⟨93, _⟩ => ⟨S128x128, .f32⟩
  | .hbm, ⟨94, _⟩ => ⟨S50000x128, .f32⟩
  | .hbm, ⟨95, _⟩ => ⟨S_, .i32⟩
  | .hbm, ⟨96, _⟩ => ⟨S850000, .i32⟩
  | .hbm, ⟨97, _⟩ => ⟨S850000, .i1⟩
  | .hbm, ⟨98, _⟩ => ⟨S_, .i32⟩
  | .hbm, ⟨99, _⟩ => ⟨S850000, .i32⟩
  | .hbm, ⟨100, _⟩ => ⟨S850000, .i32⟩
  | .hbm, ⟨101, _⟩ => ⟨S850000, .i32⟩
  | .hbm, ⟨102, _⟩ => ⟨S850000x1, .i32⟩
  | .hbm, ⟨103, _⟩ => ⟨S850000x128, .f32⟩
  | .hbm, ⟨104, _⟩ => ⟨S850000x1, .f32⟩
  | .hbm, ⟨105, _⟩ => ⟨S850000x128, .f32⟩
  | .hbm, ⟨106, _⟩ => ⟨S850000x128, .f32⟩
  | .hbm, ⟨107, _⟩ => ⟨S_, .f32⟩
  | .hbm, ⟨108, _⟩ => ⟨S50000x128, .f32⟩
  | .hbm, ⟨109, _⟩ => ⟨S850000x1, .i32⟩
  | .hbm, ⟨110, _⟩ => ⟨S50000x128, .f32⟩
  | .hbm, ⟨111, _⟩ => ⟨S1x128, .f32⟩
  | .hbm, ⟨112, _⟩ => ⟨S128, .f32⟩
  | .hbm, ⟨113, _⟩ => ⟨S1x128, .f32⟩
  | .hbm, ⟨114, _⟩ => ⟨S50000x128, .f32⟩
  | .hbm, ⟨115, _⟩ => ⟨S1x64, .f32⟩
  | .hbm, ⟨116, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x64, .f32⟩
  | .local _ .vmem, ⟨33, _⟩ => ⟨S1x64, .f32⟩
  | .local _ .vmem, ⟨34, _⟩ => ⟨S2000x64, .f32⟩
  | .local _ .vmem, ⟨35, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_c_6 : Ref sig .tc := ⟨.hbm, 49, rfl⟩
abbrev main_v33 : Ref sig .tc := ⟨.hbm, 50, rfl⟩
abbrev main_v34 : Ref sig .tc := ⟨.hbm, 51, rfl⟩
abbrev main_c_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_8 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_c_9 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_11 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_12 : Ref sig .tc := ⟨.hbm, 95, rfl⟩
abbrev main_v73 : Ref sig .tc := ⟨.hbm, 96, rfl⟩
abbrev main_v74 : Ref sig .tc := ⟨.hbm, 97, rfl⟩
abbrev main_c_13 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg3_0 : Ref sig .tc := ⟨.vmem, 34, rfl⟩
abbrev cc6_stg3_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem3_0 : DmaSem sig := 34
abbrev cc6_sem3_1 : DmaSem sig := 35

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S2000x64 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128x128_S1x128x128_0_0_0 : S3x128x128.Slices ![0, 0, 0] S1x128x128
  shapeCasts_S1x128x128_S128x128 : S1x128x128.ShapeCasts S128x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  slices_S3x128_S1x128_0_0 : S3x128.Slices ![0, 0] S1x128
  shapeCasts_S1x128_S128 : S1x128.ShapeCasts S128
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S50000x128.size a
  hwx1_2 : ∀ i : grid1.Coords, EltTy.bits .f32 = 32 ∨ (Rect.block (s := S50000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S50000x128.size a
  hwx3_2 : ∀ i : grid3.Coords, EltTy.bits .f32 = 32 ∨ (Rect.block (s := S50000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S50000x128.size a
  hwx4_2 : ∀ i : grid4.Coords, EltTy.bits .f32 = 32 ∨ (Rect.block (s := S50000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S50000x128.size a
  hwx5_2 : ∀ i : grid5.Coords, EltTy.bits .f32 = 32 ∨ (Rect.block (s := S50000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x64.size a ≤ S128x64.size a
  hwx6_1 : ∀ i : grid6.Coords, EltTy.bits .f32 = 32 ∨ (Rect.block (s := S128x64) S128x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x64.size a ≤ S50000x64.size a
  hwx6_3 : ∀ i : grid6.Coords, EltTy.bits .f32 = 32 ∨ (Rect.block (s := S50000x64) S2000x64.size (cc6_transform_3 i) (hinb6_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v48) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v49) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v65) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v68) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v69) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v69) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v71) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v72) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v85) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v88) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v89) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S128x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v90) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S2000x64.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x64 : Shape := ⟨2, ![128, 64]⟩
abbrev S64 : Shape := ⟨1, ![64]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S850000x128 : Shape := ⟨2, ![850000, 128]⟩
abbrev S50000x64 : Shape := ⟨2, ![50000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S128x64, .f32⟩
  | 5 => ⟨S64, .f32⟩
  | 6 => ⟨S50000, .i32⟩
  | 7 => ⟨S1x800000, .i32⟩
  | 8 => ⟨S800000, .i32⟩
  | 9 => ⟨S850000, .i32⟩
  | 10 => ⟨S1x800000, .i32⟩
  | 11 => ⟨S800000, .i32⟩
  | 12 => ⟨S850000, .i32⟩
  | 13 => ⟨S_, .f32⟩
  | 14 => ⟨S850000, .f32⟩
  | 15 => ⟨S_, .f32⟩
  | 16 => ⟨S50000, .f32⟩
  | 17 => ⟨S850000x1, .i32⟩
  | 18 => ⟨S50000, .f32⟩
  | 19 => ⟨S_, .f32⟩
  | 20 => ⟨S50000, .f32⟩
  | 21 => ⟨S50000, .i1⟩
  | 22 => ⟨S50000, .f32⟩
  | 23 => ⟨S_, .f32⟩
  | 24 => ⟨S_, .f32⟩
  | 25 => ⟨S50000, .f32⟩
  | 26 => ⟨S50000, .f32⟩
  | 27 => ⟨S_, .i32⟩
  | 28 => ⟨S850000, .i32⟩
  | 29 => ⟨S850000, .i1⟩
  | 30 => ⟨S_, .i32⟩
  | 31 => ⟨S850000, .i32⟩
  | 32 => ⟨S850000, .i32⟩
  | 33 => ⟨S850000, .i32⟩
  | 34 => ⟨S850000x1, .i32⟩
  | 35 => ⟨S850000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S850000, .f32⟩
  | 46 => ⟨S1x128x128, .f32⟩
  | 47 => ⟨S128x128, .f32⟩
  | 48 => ⟨S1x128, .f32⟩
  | 49 => ⟨S128, .f32⟩
  | 50 => ⟨S50000x128, .f32⟩
  | 51 => ⟨S_, .i32⟩
  | 52 => ⟨S850000, .i32⟩
  | 53 => ⟨S850000, .i1⟩
  | 54 => ⟨S_, .i32⟩
  | 55 => ⟨S850000, .i32⟩
  | 56 => ⟨S850000, .i32⟩
  | 57 => ⟨S850000, .i32⟩
  | 58 => ⟨S850000x1, .i32⟩
  | 59 => ⟨S850000x128, .f32⟩
  | 60 => ⟨S850000x1, .f32⟩
  | 61 => ⟨S850000x128, .f32⟩
  | 62 => ⟨S850000x128, .f32⟩
  | 63 => ⟨S_, .f32⟩
  | 64 => ⟨S50000x128, .f32⟩
  | 65 => ⟨S850000x1, .i32⟩
  | 66 => ⟨S50000x128, .f32⟩
  | 67 => ⟨S1x128, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S1x128x128, .f32⟩
  | 74 => ⟨S128x128, .f32⟩
  | 75 => ⟨S1x128, .f32⟩
  | 76 => ⟨S128, .f32⟩
  | 77 => ⟨S50000x128, .f32⟩
  | 78 => ⟨S_, .i32⟩
  | 79 => ⟨S850000, .i32⟩
  | 80 => ⟨S850000, .i1⟩
  | 81 => ⟨S_, .i32⟩
  | 82 => ⟨S850000, .i32⟩
  | 83 => ⟨S850000, .i32⟩
  | 84 => ⟨S850000, .i32⟩
  | 85 => ⟨S850000x1, .i32⟩
  | 86 => ⟨S850000x128, .f32⟩
  | 87 => ⟨S850000x1, .f32⟩
  | 88 => ⟨S850000x128, .f32⟩
  | 89 => ⟨S850000x128, .f32⟩
  | 90 => ⟨S_, .f32⟩
  | 91 => ⟨S50000x128, .f32⟩
  | 92 => ⟨S850000x1, .i32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S1x128x128, .f32⟩
  | 101 => ⟨S128x128, .f32⟩
  | 102 => ⟨S1x128, .f32⟩
  | 103 => ⟨S128, .f32⟩
  | 104 => ⟨S50000x128, .f32⟩
  | 105 => ⟨S_, .i32⟩
  | 106 => ⟨S850000, .i32⟩
  | 107 => ⟨S850000, .i1⟩
  | 108 => ⟨S_, .i32⟩
  | 109 => ⟨S850000, .i32⟩
  | 110 => ⟨S850000, .i32⟩
  | 111 => ⟨S850000, .i32⟩
  | 112 => ⟨S850000x1, .i32⟩
  | 113 => ⟨S850000x128, .f32⟩
  | 114 => ⟨S850000x1, .f32⟩
  | 115 => ⟨S850000x128, .f32⟩
  | 116 => ⟨S850000x128, .f32⟩
  | 117 => ⟨S_, .f32⟩
  | 118 => ⟨S50000x128, .f32⟩
  | 119 => ⟨S850000x1, .i32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x64, .f32⟩
  | _ => ⟨S50000x128, .f32⟩

abbrev hbmTy0_1 (i : Nat) : BufTy := match i % 128 with
  | 0 => ⟨S1x64, .f32⟩
  | 1 => ⟨S50000x64, .f32⟩
  | 2 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_c_6 : Ref sig .tc := ⟨.hbm, 51, rfl⟩
abbrev main_v35 : Ref sig .tc := ⟨.hbm, 52, rfl⟩
abbrev main_v36 : Ref sig .tc := ⟨.hbm, 53, rfl⟩
abbrev main_c_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call1_cst : Ref sig .tc := ⟨.hbm, 70, rfl⟩
abbrev main_call1_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_9 : Ref sig .tc := ⟨.hbm, 78, rfl⟩
abbrev main_v57 : Ref sig .tc := ⟨.hbm, 79, rfl⟩
abbrev main_v58 : Ref sig .tc := ⟨.hbm, 80, rfl⟩
abbrev main_c_10 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_11 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call2_cst : Ref sig .tc := ⟨.hbm, 97, rfl⟩
abbrev main_call2_v0 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_c_12 : Ref sig .tc := ⟨.hbm, 105, rfl⟩
abbrev main_v79 : Ref sig .tc := ⟨.hbm, 106, rfl⟩
abbrev main_v80 : Ref sig .tc := ⟨.hbm, 107, rfl⟩
abbrev main_c_13 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_cst_14 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_call3_cst : Ref sig .tc := ⟨.hbm, 124, rfl⟩
abbrev main_call3_v0 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The program's run with its result named: the same launch over the same segments as the frame, the last thread
  state read at one more buffer. What the result buffer holds is left as the fold of the segments at that buffer;
  the modules after this one read the fold back, region by region.
-/
import proofs.«143285_j55765855371408_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and then the result buffer holds what
    the last region's write-backs leave in it (the fold of the program's segments read at that buffer) while
    the six argument arrays are as launched. -/
theorem run_main : θ_run defs (onTc (τ := τ) (main (F := F))) ⟨m, fun _ => 0, ρ⟩ (fun r => ∀ c : Dev nD,
      r.2.mem ((c.tc : Thread nD τ).loc main_v91) = W16 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v91 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c)⟩)

end Cert.KernelIdeal.Run

end
-- ==== Proof.Spec.lean ====
/-
  What the three dense stages of the network compute, entry by entry, on the extended reals.
  A layer of the graph network is: project every node's 128 features by a 128×128 matrix (`lin`), gather the
  projected rows along the edges, scale and sum them into the destination nodes (host operations shared by
  both programs, never opened here), then add the layer's bias row and cut off the negative part (`biasRelu`).
  After three layers the head projects to 64 features and adds its bias row (`head`).
-/
import Idealize.ShloMosaic.PureOps.Ideal
import Idealize.ShloMosaic.Lib.ValueIdx

noncomputable section

namespace Cert.Gcn

open Idealize.ShloMosaic Idealize.ShloMosaic.ValueIdx

/-- One row of 128 features per node. -/
abbrev SNode : Shape := ⟨2, ![50000, 128]⟩
/-- One row of 64 outputs per node. -/
abbrev SOut : Shape := ⟨2, ![50000, 64]⟩
/-- A layer's weight matrix. -/
abbrev SW : Shape := ⟨2, ![128, 128]⟩
/-- The head's weight matrix. -/
abbrev SWl : Shape := ⟨2, ![128, 64]⟩
/-- A layer's bias as a one-row array. -/
abbrev SRow : Shape := ⟨2, ![1, 128]⟩
/-- The head's bias as a one-row array. -/
abbrev SRowl : Shape := ⟨2, ![1, 64]⟩

/-- The projection `x · w`: entry (n, q) is the sum over d of x (n, d) · w (d, q). -/
def lin (x : FVec Ideal SNode .f32) (w : FVec Ideal SW .f32) : FVec Ideal SNode .f32 :=
  fun i => ∑ d : Fin 128, x (ix2 (i 0) d) * w (ix2 d (i 1))

/-- The bias row added to every node's row, then the maximum with zero. -/
def biasRelu (a : FVec Ideal SNode .f32) (b : FVec Ideal SRow .f32) : FVec Ideal SNode .f32 :=
  fun i => max (a i + b (ix2 (0 : Fin 1) (i 1))) (Ideal.ofBits .f32 0x00000000#32)

/-- The head: `x · w` plus the bias row, entry (n, q) the sum over d of x (n, d) · w (d, q), plus b (0, q). -/
def head (x : FVec Ideal SNode .f32) (w : FVec Ideal SWl .f32) (b : FVec Ideal SRowl .f32) : FVec Ideal SOut .f32 :=
  fun i => (∑ d : Fin 128, x (ix2 (i 0) d) * w (ix2 d (i 1))) + b (ix2 (0 : Fin 1) (i 1))

end Cert.Gcn

end
-- ==== Proof.Chain.lean ====
/-
  The host side of the network, shared word for word by both programs, as named functions of the arrays it is
  applied to: the edge list with the self loops appended (`srcOf`, `dstOf`), a start index made non-negative
  (`wrap`), the in-degree of every node (`deg`), its inverse square root where positive (`dinv`), the weight of
  every edge (`norm`: the product of the two end points' `dinv`), the aggregation of projected rows along the
  edges into their destinations (`agg`: gather, scale, scatter-add), a layer's weight matrix and bias out of
  the stacks, and the reference's layer and head over these. Nothing here is ever opened by the proof: the two
  programs meet on these names.
-/
import proofs.«143285_j55765855371408_1_alg».proof.Proof.Gen.ReferenceIdeal
import proofs.«143285_j55765855371408_1_alg».proof.Proof.Spec

noncomputable section

namespace Cert.Gcn.Chain

open Cert.ReferenceIdeal Cert.ReferenceIdeal.Gen Idealize.ShloMosaic Idealize.ShloMosaic.TcCoe Idealize.SL.Sem

/-- The source node of every edge, then every node once (its self loop). -/
def srcOf (ei : (⟨S2x800000, .i32⟩ : BufTy).Contents (Elt Ideal)) : (⟨S850000, .i32⟩ : BufTy).Contents (Elt Ideal) :=
  concatenate S850000 0 [⟨S800000, (shapeCast _ (extractStridedSlice S1x800000 ![0, 0] ei slices_S2x800000_S1x800000_0_0) shapeCasts_S1x800000_S800000)⟩, ⟨S50000, (iotaInDim S50000 32 0)⟩] concatenates_S800000_S50000_S850000_d0

/-- The destination node of every edge, then every node once (its self loop). -/
def dstOf (ei : (⟨S2x800000, .i32⟩ : BufTy).Contents (Elt Ideal)) : (⟨S850000, .i32⟩ : BufTy).Contents (Elt Ideal) :=
  concatenate S850000 0 [⟨S800000, (shapeCast _ (extractStridedSlice S1x800000 ![1, 0] ei slices_S2x800000_S1x800000_1_0) shapeCasts_S1x800000_S800000)⟩, ⟨S50000, (iotaInDim S50000 32 0)⟩] concatenates_S800000_S50000_S850000_d0

/-- Node numbers as gather start indices: a negative number counted from the end, one index per row. -/
def wrap (v : (⟨S850000, .i32⟩ : BufTy).Contents (Elt Ideal)) : (⟨S850000x1, .i32⟩ : BufTy).Contents (Elt Ideal) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- The number of edges (self loops included) arriving at every node. -/
def deg (dst : (⟨S850000, .i32⟩ : BufTy).Contents (Elt Ideal)) : (⟨S50000, .f32⟩ : BufTy).Contents (Elt Ideal) :=
  Host.scatterAdd (F := Ideal) (φ := .f32) scatter_S50000_S850000x1_S850000_n_0_0_1 (broadcastInDim S50000 ![] bcast_S_S50000 (constant S_ .f32 0x00000000#32)) (broadcastInDim S850000x1 ![0] bcast_S850000_S850000x1_0 dst) (broadcastInDim S850000 ![] bcast_S_S850000 (constant S_ .f32 0x3F800000#32))

/-- The inverse square root of the in-degree where it is positive, zero elsewhere. -/
def dinv (dst : (⟨S850000, .i32⟩ : BufTy).Contents (Elt Ideal)) : (⟨S50000, .f32⟩ : BufTy).Contents (Elt Ideal) :=
  select (cmpf (F := Ideal) (φ := .f32) .ogt (deg dst) (broadcastInDim S50000 ![] bcast_S_S50000 (constant S_ .f32 0x00000000#32))) (Host.rsqrt (F := Ideal) (φ := .f32) (deg dst)) (broadcastInDim S50000 ![] bcast_S_S50000 (id (constant (F := Ideal) S_ .f32 0x00000000#32)))

/-- The weight of every edge: the product of its two end points' inverse-square-root degrees. -/
def norm (src dst : (⟨S850000, .i32⟩ : BufTy).Contents (Elt Ideal)) : (⟨S850000, .f32⟩ : BufTy).Contents (Elt Ideal) :=
  mulf (F := Ideal) (φ := .f32) (Host.gather gather_S50000_S850000x1_S850000_n_0_n_n_0_1_1 (dinv dst) (wrap src)) (Host.gather gather_S50000_S850000x1_S850000_n_0_n_n_0_1_1 (dinv dst) (wrap dst))

/-- Every edge carries its source's row times the edge's weight into its destination's row, summed. -/
def agg (src dst : (⟨S850000, .i32⟩ : BufTy).Contents (Elt Ideal)) (nrm : (⟨S850000, .f32⟩ : BufTy).Contents (Elt Ideal)) (h : (⟨S50000x128, .f32⟩ : BufTy).Contents (Elt Ideal)) : (⟨S50000x128, .f32⟩ : BufTy).Contents (Elt Ideal) :=
  Host.scatterAdd (F := Ideal) (φ := .f32) scatter_S50000x128_S850000x1_S850000x128_1_0_0_1 (broadcastInDim S50000x128 ![] bcast_S_S50000x128 (constant S_ .f32 0x00000000#32)) (broadcastInDim S850000x1 ![0] bcast_S850000_S850000x1_0 dst) (mulf (F := Ideal) (φ := .f32) (Host.gather gather_S50000x128_S850000x1_S850000x128_1_0_n_n_0_1_1128 h (broadcastInDim S850000x1 ![0] bcast_S850000_S850000x1_0 (select (cmpi .slt src (broadcastInDim S850000 ![] bcast_S_S850000 (constantI S_ 32 0#32))) (addi src (broadcastInDim S850000 ![] bcast_S_S850000 (constantI S_ 32 50000#32))) src))) (broadcastInDim S850000x128 ![0, 1] bcast_S850000x1_S850000x128_0_1 (broadcastInDim S850000x1 ![0] bcast_S850000_S850000x1_0 nrm)))

/-- Layer `k`'s weight matrix out of the stack. -/
def weight0 (ws : (⟨S3x128x128, .f32⟩ : BufTy).Contents (Elt Ideal)) : (⟨S128x128, .f32⟩ : BufTy).Contents (Elt Ideal) :=
  shapeCast _ (extractStridedSlice S1x128x128 ![0, 0, 0] ws slices_S3x128x128_S1x128x128_0_0_0) shapeCasts_S1x128x128_S128x128
def weight1 (ws : (⟨S3x128x128, .f32⟩ : BufTy).Contents (Elt Ideal)) : (⟨S128x128, .f32⟩ : BufTy).Contents (Elt Ideal) :=
  shapeCast _ (extractStridedSlice S1x128x128 ![1, 0, 0] ws slices_S3x128x128_S1x128x128_1_0_0) shapeCasts_S1x128x128_S128x128
def weight2 (ws : (⟨S3x128x128, .f32⟩ : BufTy).Contents (Elt Ideal)) : (⟨S128x128, .f32⟩ : BufTy).Contents (Elt Ideal) :=
  shapeCast _ (extractStridedSlice S1x128x128 ![2, 0, 0] ws slices_S3x128x128_S1x128x128_2_0_0) shapeCasts_S1x128x128_S128x128

/-- Layer `k`'s bias vector out of the stack. -/
def bias0 (bs : (⟨S3x128, .f32⟩ : BufTy).Contents (Elt Ideal)) : (⟨S128, .f32⟩ : BufTy).Contents (Elt Ideal) :=
  shapeCast _ (extractStridedSlice S1x128 ![0, 0] bs slices_S3x128_S1x128_0_0) shapeCasts_S1x128_S128
def bias1 (bs : (⟨S3x128, .f32⟩ : BufTy).Contents (Elt Ideal)) : (⟨S128, .f32⟩ : BufTy).Contents (Elt Ideal) :=
  shapeCast _ (extractStridedSlice S1x128 ![1, 0] bs slices_S3x128_S1x128_1_0) shapeCasts_S1x128_S128
def bias2 (bs : (⟨S3x128, .f32⟩ : BufTy).Contents (Elt Ideal)) : (⟨S128, .f32⟩ : BufTy).Contents (Elt Ideal) :=
  shapeCast _ (extractStridedSlice S1x128 ![2, 0] bs slices_S3x128_S1x128_2_0) shapeCasts_S1x128_S128

/-- A bias vector as a one-row array. -/
def rowOf (b : (⟨S128, .f32⟩ : BufTy).Contents (Elt Ideal)) : (⟨S1x128, .f32⟩ : BufTy).Contents (Elt Ideal) :=
  shapeCast S1x128 b (by decide)
def rowOfl (b : (⟨S64, .f32⟩ : BufTy).Contents (Elt Ideal)) : (⟨S1x64, .f32⟩ : BufTy).Contents (Elt Ideal) :=
  shapeCast S1x64 b (by decide)

/-- The reference's layer: project, aggregate along the edges, add the bias to every row, maximum with zero. -/
def layerRef (src dst : (⟨S850000, .i32⟩ : BufTy).Contents (Elt Ideal)) (nrm : (⟨S850000, .f32⟩ : BufTy).Contents (Elt Ideal)) (x : (⟨S50000x128, .f32⟩ : BufTy).Contents (Elt Ideal)) (w : (⟨S128x128, .f32⟩ : BufTy).Contents (Elt Ideal)) (b : (⟨S128, .f32⟩ : BufTy).Contents (Elt Ideal)) : (⟨S50000x128, .f32⟩ : BufTy).Contents (Elt Ideal) :=
  maximumf (F := Ideal) (φ := .f32) (addf (F := Ideal) (φ := .f32) (agg src dst nrm (Host.dotGeneral (F := Ideal) (φ₁ := .f32) (φ₂ := .f32) dot_S50000x128_S128x128_S50000x128_1_0_0_1_n_n none x w)) (broadcastInDim S50000x128 ![0, 1] bcast_S1x128_S50000x128_0_1 (broadcastInDim S1x128 ![1] bcast_S128_S1x128_1 b))) (broadcastInDim S50000x128 ![] bcast_S_S50000x128 (constant S_ .f32 0x00000000#32))

/-- The reference's head: project to 64 features and add the bias to every row. -/
def headRef (x : (⟨S50000x128, .f32⟩ : BufTy).Contents (Elt Ideal)) (wl : (⟨S128x64, .f32⟩ : BufTy).Contents (Elt Ideal)) (bl : (⟨S64, .f32⟩ : BufTy).Contents (Elt Ideal)) : (⟨S50000x64, .f32⟩ : BufTy).Contents (Elt Ideal) :=
  addf (F := Ideal) (φ := .f32) (Host.dotGeneral (F := Ideal) (φ₁ := .f32) (φ₂ := .f32) dot_S50000x128_S128x64_S50000x64_1_0_0_1_n_n none x wl) (broadcastInDim S50000x64 ![0, 1] bcast_S1x64_S50000x64_0_1 (broadcastInDim S1x64 ![1] bcast_S64_S1x64_1 bl))

/-- The reference's whole result as a function of the six arguments. -/
def refTerm (x : (⟨S50000x128, .f32⟩ : BufTy).Contents (Elt Ideal)) (ei : (⟨S2x800000, .i32⟩ : BufTy).Contents (Elt Ideal)) (ws : (⟨S3x128x128, .f32⟩ : BufTy).Contents (Elt Ideal)) (bs : (⟨S3x128, .f32⟩ : BufTy).Contents (Elt Ideal)) (wl : (⟨S128x64, .f32⟩ : BufTy).Contents (Elt Ideal)) (bl : (⟨S64, .f32⟩ : BufTy).Contents (Elt Ideal)) : (⟨S50000x64, .f32⟩ : BufTy).Contents (Elt Ideal) :=
  headRef (layerRef (srcOf ei) (dstOf ei) (norm (srcOf ei) (dstOf ei)) (layerRef (srcOf ei) (dstOf ei) (norm (srcOf ei) (dstOf ei)) (layerRef (srcOf ei) (dstOf ei) (norm (srcOf ei) (dstOf ei)) x (weight0 ws) (bias0 bs)) (weight1 ws) (bias1 bs)) (weight2 ws) (bias2 bs)) wl bl

/-- The kernel's layer over the same host side: the dense stages entry by entry (`Cert.Gcn.lin`, `Cert.Gcn.biasRelu`). -/
def layerKer (src dst : (⟨S850000, .i32⟩ : BufTy).Contents (Elt Ideal)) (nrm : (⟨S850000, .f32⟩ : BufTy).Contents (Elt Ideal)) (x : (⟨S50000x128, .f32⟩ : BufTy).Contents (Elt Ideal)) (w : (⟨S128x128, .f32⟩ : BufTy).Contents (Elt Ideal)) (b : (⟨S128, .f32⟩ : BufTy).Contents (Elt Ideal)) : (⟨S50000x128, .f32⟩ : BufTy).Contents (Elt Ideal) :=
  Cert.Gcn.biasRelu (agg src dst nrm (Cert.Gcn.lin x w)) (rowOf b)

/-- The kernel's whole result as a function of the six arguments. -/
def kerTerm (x : (⟨S50000x128, .f32⟩ : BufTy).Contents (Elt Ideal)) (ei : (⟨S2x800000, .i32⟩ : BufTy).Contents (Elt Ideal)) (ws : (⟨S3x128x128, .f32⟩ : BufTy).Contents (Elt Ideal)) (bs : (⟨S3x128, .f32⟩ : BufTy).Contents (Elt Ideal)) (wl : (⟨S128x64, .f32⟩ : BufTy).Contents (Elt Ideal)) (bl : (⟨S64, .f32⟩ : BufTy).Contents (Elt Ideal)) : (⟨S50000x64, .f32⟩ : BufTy).Contents (Elt Ideal) :=
  Cert.Gcn.head (layerKer (srcOf ei) (dstOf ei) (norm (srcOf ei) (dstOf ei)) (layerKer (srcOf ei) (dstOf ei) (norm (srcOf ei) (dstOf ei)) (layerKer (srcOf ei) (dstOf ei) (norm (srcOf ei) (dstOf ei)) x (weight0 ws) (bias0 bs)) (weight1 ws) (bias1 bs)) (weight2 ws) (bias2 bs)) wl (rowOfl bl)

end Cert.Gcn.Chain

end
-- ==== Proof.HostSide.lean ====
/-
  The host operations of the kernel's program between its regions, read as the named functions of the shared
  host side: the stretch before the first region computes the edge list with self loops and the edge weights
  once; every later stretch leaves them, and the stacked arguments, where they are, and computes for the region
  after it either the aggregation along the edges and the layer's bias as a one-row array, or the layer's
  weight matrix out of the stack. Everything is stated for arbitrary contents of the buffers on entry.
-/
import proofs.«143285_j55765855371408_1_alg».proof.Proof.Gen.KernelIdeal.Launch
import proofs.«143285_j55765855371408_1_alg».proof.Proof.Chain
import Idealize.ShloMosaic.Lib.StableHlo.Run

-- deciding that two of the 153 references differ recurses past the default depth
set_option maxRecDepth 4096

noncomputable section

namespace Cert.KernelIdeal.HostSide

open Cert.KernelIdeal Cert.KernelIdeal.Gen Cert.Gcn.Chain Idealize.ShloMosaic Idealize.ShloMosaic.TcCoe Idealize.SL.Sem Idealize.ShloMosaic.StableHlo

/-- The contents of every buffer of the device. -/
abbrev Val := Valuation τ sig (Elt Ideal)

local notation "⟪" r "⟫" => Proc.devRef Proc.tc r

/-- A buffer that no operation of the named stretch writes holds after the stretch what it held before. -/
local macro "not_written " l:ident : tactic => `(tactic|
  exact StableHlo.after_of_forall_not_mem _ _ (List.forall_iff_forall_mem.mp (by
    simp only [$l:ident, List.Forall, StableHlo.nullary_writes, StableHlo.unary_writes, StableHlo.binary_writes,
      StableHlo.ternary_writes, StableHlo.reshape_writes, Finset.mem_singleton]
    repeat' apply And.intro
    all_goals exact StableHlo.devRef_ne_of_ne (by decide))))

/-- The three host stretches before the first region, run in order. -/
def pre (V : Val) : Val := StableHlo.after hostOps0_2 (StableHlo.after hostOps0_1 (StableHlo.after hostOps0 V))

/-- What every later stretch needs of the buffers computed once up front and of the stacked arguments: the
    edge list with self loops, the edge weights, and the weight and bias stacks and the head's parameters. -/
structure Carried (ei : (⟨Cert.ReferenceIdeal.S2x800000, .i32⟩ : BufTy).Contents (Elt Ideal))
    (ws : (⟨Cert.ReferenceIdeal.S3x128x128, .f32⟩ : BufTy).Contents (Elt Ideal))
    (bs : (⟨Cert.ReferenceIdeal.S3x128, .f32⟩ : BufTy).Contents (Elt Ideal))
    (wl : (⟨Cert.ReferenceIdeal.S128x64, .f32⟩ : BufTy).Contents (Elt Ideal))
    (bl : (⟨Cert.ReferenceIdeal.S64, .f32⟩ : BufTy).Contents (Elt Ideal)) (V : Val) : Prop where
  src : V ⟪main_v3⟫ = srcOf ei
  dst : V ⟪main_v6⟫ = dstOf ei
  nrm : V ⟪main_v29⟫ = Cert.Gcn.Chain.norm (srcOf ei) (dstOf ei)
  ws : V ⟪main_arg2⟫ = ws
  bs : V ⟪main_arg3⟫ = bs
  wl : V ⟪main_arg4⟫ = wl
  bl : V ⟪main_arg5⟫ = bl

variable {ei : (⟨Cert.ReferenceIdeal.S2x800000, .i32⟩ : BufTy).Contents (Elt Ideal)}
  {ws : (⟨Cert.ReferenceIdeal.S3x128x128, .f32⟩ : BufTy).Contents (Elt Ideal)}
  {bs : (⟨Cert.ReferenceIdeal.S3x128, .f32⟩ : BufTy).Contents (Elt Ideal)}
  {wl : (⟨Cert.ReferenceIdeal.S128x64, .f32⟩ : BufTy).Contents (Elt Ideal)}
  {bl : (⟨Cert.ReferenceIdeal.S64, .f32⟩ : BufTy).Contents (Elt Ideal)} {V : Val}

/-- Contents that agree with carried ones on the seven buffers are carried too. -/
theorem Carried.of_agree {V' : Val} (h : Carried ei ws bs wl bl V)
    (h3 : V' ⟪main_v3⟫ = V ⟪main_v3⟫) (h6 : V' ⟪main_v6⟫ = V ⟪main_v6⟫) (h29 : V' ⟪main_v29⟫ = V ⟪main_v29⟫)
    (ha2 : V' ⟪main_arg2⟫ = V ⟪main_arg2⟫) (ha3 : V' ⟪main_arg3⟫ = V ⟪main_arg3⟫)
    (ha4 : V' ⟪main_arg4⟫ = V ⟪main_arg4⟫) (ha5 : V' ⟪main_arg5⟫ = V ⟪main_arg5⟫) : Carried ei ws bs wl bl V' :=
  ⟨h3.trans h.src, h6.trans h.dst, h29.trans h.nrm, ha2.trans h.ws, ha3.trans h.bs, ha4.trans h.wl, ha5.trans h.bl⟩

/-- The first stretches concatenate every edge's source node with every node once. -/
theorem pre_src (V : Val) : pre V ⟪main_v3⟫ = srcOf (V ⟪main_arg1⟫) := by
  unfold pre
  simp only [hostOps0, hostOps0_1, hostOps0_2]
  after_results_simp
  rfl

/-- The first stretches concatenate every edge's destination node with every node once. -/
theorem pre_dst (V : Val) : pre V ⟪main_v6⟫ = dstOf (V ⟪main_arg1⟫) := by
  unfold pre
  simp only [hostOps0, hostOps0_1, hostOps0_2]
  after_results_simp
  rfl

/-- The first stretches leave the node features where they are. -/
theorem pre_x (V : Val) : pre V ⟪main_arg0⟫ = V ⟪main_arg0⟫ :=
  (by not_written hostOps0_2 : StableHlo.after hostOps0_2 _ ⟪main_arg0⟫ = _).trans
    ((by not_written hostOps0_1 : StableHlo.after hostOps0_1 _ ⟪main_arg0⟫ = _).trans (by not_written hostOps0))

/-- The first stretches cut layer 0's weight matrix out of the stack. -/
theorem pre_w (V : Val) : pre V ⟪main_v31⟫ = weight0 (V ⟪main_arg2⟫) := by
  unfold pre
  simp only [hostOps0, hostOps0_1, hostOps0_2]
  after_results_simp
  rfl

/-- Where the in-degree is positive. -/
theorem pos_of_hostOps0 (V : Val) : StableHlo.after hostOps0 V ⟪main_v12⟫
    = cmpf (F := Ideal) (φ := .f32) .ogt (deg (dstOf (V ⟪main_arg1⟫))) (broadcastInDim S50000 ![] bcast_S_S50000 (constant (F := Ideal) S_ .f32 0x00000000#32)) := by
  simp only [hostOps0]
  after_results_simp
  rfl

/-- The inverse square root of the in-degree. -/
theorem rsqrt_of_hostOps0 (V : Val) :
    StableHlo.after hostOps0 V ⟪main_v13⟫ = Host.rsqrt (F := Ideal) (φ := .f32) (deg (dstOf (V ⟪main_arg1⟫))) := by
  simp only [hostOps0]
  after_results_simp
  rfl

/-- The zero the selection falls back to. -/
theorem zero_of_hostOps0 (V : Val) : StableHlo.after hostOps0 V ⟪main_cst_2⟫ = constant (F := Ideal) S_ .f32 0x00000000#32 := by
  simp only [hostOps0]
  after_results_simp

/-- The outlined selection: its second operand where its first holds, its third operand broadcast elsewhere. -/
theorem where_of_hostOps0_1 (W : Val) (c : (⟨S50000, .i1⟩ : BufTy).Contents (Elt Ideal))
    (r : (⟨S50000, .f32⟩ : BufTy).Contents (Elt Ideal)) (z : (⟨S_, .f32⟩ : BufTy).Contents (Elt Ideal))
    (hc : W ⟪main_v12⟫ = c) (hr : W ⟪main_v13⟫ = r) (hz : W ⟪main_cst_2⟫ = z) :
    StableHlo.after hostOps0_1 W ⟪main_v14⟫ = select c r (broadcastInDim S50000 ![] bcast_S_S50000 (id z)) := by
  simp only [hostOps0_1]
  after_results_simp
  rw [hc, hr, hz]
  rfl

/-- The edge weights from the inverse-square-root degrees and the two ends of every edge. -/
theorem weights_of_hostOps0_2 (W : Val) (src dst : (⟨S850000, .i32⟩ : BufTy).Contents (Elt Ideal))
    (dv : (⟨S50000, .f32⟩ : BufTy).Contents (Elt Ideal))
    (hs : W ⟪main_v3⟫ = src) (hd : W ⟪main_v6⟫ = dst) (hv : W ⟪main_v14⟫ = dv) :
    StableHlo.after hostOps0_2 W ⟪main_v29⟫
      = mulf (F := Ideal) (φ := .f32) (Host.gather gather_S50000_S850000x1_S850000_n_0_n_n_0_1_1 dv (wrap src))
          (Host.gather gather_S50000_S850000x1_S850000_n_0_n_n_0_1_1 dv (wrap dst)) := by
  simp only [hostOps0_2]
  after_results_simp
  rw [hs, hd, hv]
  unfold wrap
  rfl

/-- The first stretches compute every edge's weight from the in-degrees of its two ends. -/
theorem pre_nrm (V : Val) :
    pre V ⟪main_v29⟫ = Cert.Gcn.Chain.norm (srcOf (V ⟪main_arg1⟫)) (dstOf (V ⟪main_arg1⟫)) := by
  have hs : StableHlo.after hostOps0_1 (StableHlo.after hostOps0 V) ⟪main_v3⟫ = srcOf (V ⟪main_arg1⟫) :=
    (by not_written hostOps0_1 : StableHlo.after hostOps0_1 _ ⟪main_v3⟫ = _).trans (by
      simp only [hostOps0]
      after_results_simp
      rfl)
  have hd : StableHlo.after hostOps0_1 (StableHlo.after hostOps0 V) ⟪main_v6⟫ = dstOf (V ⟪main_arg1⟫) :=
    (by not_written hostOps0_1 : StableHlo.after hostOps0_1 _ ⟪main_v6⟫ = _).trans (by
      simp only [hostOps0]
      after_results_simp
      rfl)
  have hv : StableHlo.after hostOps0_1 (StableHlo.after hostOps0 V) ⟪main_v14⟫ = dinv (dstOf (V ⟪main_arg1⟫)) :=
    (where_of_hostOps0_1 _ _ _ _ (pos_of_hostOps0 V) (rsqrt_of_hostOps0 V) (zero_of_hostOps0 V)).trans (by
      unfold dinv
      rfl)
  refine (weights_of_hostOps0_2 _ _ _ _ hs hd hv).trans ?_
  unfold Cert.Gcn.Chain.norm
  rfl

/-- After the first stretches the edge list, the edge weights and the stacked arguments are in place. -/
theorem pre_carried (V : Val) :
    Carried (V ⟪main_arg1⟫) (V ⟪main_arg2⟫) (V ⟪main_arg3⟫) (V ⟪main_arg4⟫) (V ⟪main_arg5⟫) (pre V) where
  src := pre_src V
  dst := pre_dst V
  nrm := pre_nrm V
  ws := (by not_written hostOps0_2 : StableHlo.after hostOps0_2 _ ⟪main_arg2⟫ = _).trans
    ((by not_written hostOps0_1 : StableHlo.after hostOps0_1 _ ⟪main_arg2⟫ = _).trans (by not_written hostOps0))
  bs := (by not_written hostOps0_2 : StableHlo.after hostOps0_2 _ ⟪main_arg3⟫ = _).trans
    ((by not_written hostOps0_1 : StableHlo.after hostOps0_1 _ ⟪main_arg3⟫ = _).trans (by not_written hostOps0))
  wl := (by not_written hostOps0_2 : StableHlo.after hostOps0_2 _ ⟪main_arg4⟫ = _).trans
    ((by not_written hostOps0_1 : StableHlo.after hostOps0_1 _ ⟪main_arg4⟫ = _).trans (by not_written hostOps0))
  bl := (by not_written hostOps0_2 : StableHlo.after hostOps0_2 _ ⟪main_arg5⟫ = _).trans
    ((by not_written hostOps0_1 : StableHlo.after hostOps0_1 _ ⟪main_arg5⟫ = _).trans (by not_written hostOps0))

/-- The stretch of host operations after region 0 writes none of the carried buffers. -/
theorem Carried.h1 (h : Carried ei ws bs wl bl V) : Carried ei ws bs wl bl (StableHlo.after hostOps1 V) :=
  h.of_agree (by not_written hostOps1) (by not_written hostOps1) (by not_written hostOps1) (by not_written hostOps1)
    (by not_written hostOps1) (by not_written hostOps1) (by not_written hostOps1)

/-- The stretch of host operations after region 1 writes none of the carried buffers. -/
theorem Carried.h2 (h : Carried ei ws bs wl bl V) : Carried ei ws bs wl bl (StableHlo.after hostOps2 V) :=
  h.of_agree (by not_written hostOps2) (by not_written hostOps2) (by not_written hostOps2) (by not_written hostOps2)
    (by not_written hostOps2) (by not_written hostOps2) (by not_written hostOps2)

/-- The stretch of host operations after region 2 writes none of the carried buffers. -/
theorem Carried.h3 (h : Carried ei ws bs wl bl V) : Carried ei ws bs wl bl (StableHlo.after hostOps3 V) :=
  h.of_agree (by not_written hostOps3) (by not_written hostOps3) (by not_written hostOps3) (by not_written hostOps3)
    (by not_written hostOps3) (by not_written hostOps3) (by not_written hostOps3)

/-- The stretch of host operations after region 3 writes none of the carried buffers. -/
theorem Carried.h4 (h : Carried ei ws bs wl bl V) : Carried ei ws bs wl bl (StableHlo.after hostOps4 V) :=
  h.of_agree (by not_written hostOps4) (by not_written hostOps4) (by not_written hostOps4) (by not_written hostOps4)
    (by not_written hostOps4) (by not_written hostOps4) (by not_written hostOps4)

/-- The stretch of host operations after region 4 writes none of the carried buffers. -/
theorem Carried.h5 (h : Carried ei ws bs wl bl V) : Carried ei ws bs wl bl (StableHlo.after hostOps5 V) :=
  h.of_agree (by not_written hostOps5) (by not_written hostOps5) (by not_written hostOps5) (by not_written hostOps5)
    (by not_written hostOps5) (by not_written hostOps5) (by not_written hostOps5)

/-- The stretch of host operations after region 5 writes none of the carried buffers. -/
theorem Carried.h6 (h : Carried ei ws bs wl bl V) : Carried ei ws bs wl bl (StableHlo.after hostOps6 V) :=
  h.of_agree (by not_written hostOps6) (by not_written hostOps6) (by not_written hostOps6) (by not_written hostOps6)
    (by not_written hostOps6) (by not_written hostOps6) (by not_written hostOps6)

/-- The stretch before region 1 gathers the rows of the layer's projection along the edges, scales them by the edge
    weights and sums them into their destination rows. -/
theorem h1_agg (h : Carried ei ws bs wl bl V) :
    StableHlo.after hostOps1 V ⟪main_v45⟫ = agg (srcOf ei) (dstOf ei) (Cert.Gcn.Chain.norm (srcOf ei) (dstOf ei)) (V ⟪main_v32⟫) := by
  simp only [hostOps1]
  after_results_simp
  rw [h.src, h.dst, h.nrm]
  unfold agg
  rfl

/-- The stretch before region 1 lays layer 0's bias vector, cut out of the stack, out as a one-row array. -/
theorem h1_row (h : Carried ei ws bs wl bl V) : StableHlo.after hostOps1 V ⟪main_v48⟫ = rowOf (bias0 bs) := by
  simp only [hostOps1]
  after_results_simp
  rw [h.bs]
  rfl

/-- The stretch before region 2 cuts layer 1's weight matrix out of the stack. -/
theorem h2_w (h : Carried ei ws bs wl bl V) : StableHlo.after hostOps2 V ⟪main_v51⟫ = weight1 ws := by
  simp only [hostOps2]
  after_results_simp
  rw [h.ws]
  rfl

/-- The stretch before region 2 leaves the previous region's result where it is. -/
theorem h2_x (V : Val) : StableHlo.after hostOps2 V ⟪main_v49⟫ = V ⟪main_v49⟫ := by not_written hostOps2

/-- The stretch before region 3 gathers the rows of the layer's projection along the edges, scales them by the edge
    weights and sums them into their destination rows. -/
theorem h3_agg (h : Carried ei ws bs wl bl V) :
    StableHlo.after hostOps3 V ⟪main_v65⟫ = agg (srcOf ei) (dstOf ei) (Cert.Gcn.Chain.norm (srcOf ei) (dstOf ei)) (V ⟪main_v52⟫) := by
  simp only [hostOps3]
  after_results_simp
  rw [h.src, h.dst, h.nrm]
  unfold agg
  rfl

/-- The stretch before region 3 lays layer 1's bias vector, cut out of the stack, out as a one-row array. -/
theorem h3_row (h : Carried ei ws bs wl bl V) : StableHlo.after hostOps3 V ⟪main_v68⟫ = rowOf (bias1 bs) := by
  simp only [hostOps3]
  after_results_simp
  rw [h.bs]
  rfl

/-- The stretch before region 4 cuts layer 2's weight matrix out of the stack. -/
theorem h4_w (h : Carried ei ws bs wl bl V) : StableHlo.after hostOps4 V ⟪main_v71⟫ = weight2 ws := by
  simp only [hostOps4]
  after_results_simp
  rw [h.ws]
  rfl

/-- The stretch before region 4 leaves the previous region's result where it is. -/
theorem h4_x (V : Val) : StableHlo.after hostOps4 V ⟪main_v69⟫ = V ⟪main_v69⟫ := by not_written hostOps4

/-- The stretch before region 5 gathers the rows of the layer's projection along the edges, scales them by the edge
    weights and sums them into their destination rows. -/
theorem h5_agg (h : Carried ei ws bs wl bl V) :
    StableHlo.after hostOps5 V ⟪main_v85⟫ = agg (srcOf ei) (dstOf ei) (Cert.Gcn.Chain.norm (srcOf ei) (dstOf ei)) (V ⟪main_v72⟫) := by
  simp only [hostOps5]
  after_results_simp
  rw [h.src, h.dst, h.nrm]
  unfold agg
  rfl

/-- The stretch before region 5 lays layer 2's bias vector, cut out of the stack, out as a one-row array. -/
theorem h5_row (h : Carried ei ws bs wl bl V) : StableHlo.after hostOps5 V ⟪main_v88⟫ = rowOf (bias2 bs) := by
  simp only [hostOps5]
  after_results_simp
  rw [h.bs]
  rfl

/-- The last stretch lays the head's bias vector out as a one-row array. -/
theorem h6_row (h : Carried ei ws bs wl bl V) : StableHlo.after hostOps6 V ⟪main_v90⟫ = rowOfl bl := by
  simp only [hostOps6]
  after_results_simp
  rw [h.bl]
  rfl

/-- The last stretch leaves the previous region's result where it is. -/
theorem h6_x (V : Val) : StableHlo.after hostOps6 V ⟪main_v89⟫ = V ⟪main_v89⟫ := by not_written hostOps6

end Cert.KernelIdeal.HostSide

end
-- ==== Proof.LibMatmulIdx.lean ====
/-
  A PLAIN MATRIX PRODUCT into the zero accumulator, read at an entry.

  For the dimension numbers of `M×K` by `K×N` (contract the left operand's axis 1 with the right's axis 0, no batch
  axis) the product accumulated into the splat of `+0.0` is, at the exact instance and at entry `(p, c)`, the plain sum
  `∑ k, lhs[p, k] · rhs[k, c]` over the one contracted coordinate — whatever float formats the operands carry, a
  change of format being the identity on extended reals.
-/
import Idealize.ShloMosaic.PureOps.Ideal.Laws
import Idealize.ShloMosaic.Lib.ValueIdx

noncomputable section

open scoped BigOperators

namespace Cert.MatmulIdx

open Idealize.ShloMosaic Idealize.ShloMosaic.ValueIdx

/-- The left operand's row coordinate is the output entry's. -/
theorem plain_lhs0 {M K N : Nat} (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬ (0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the output entry's. -/
theorem plain_rhs1 {M K N : Nat} (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬ (1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The left operand's index at output entry `(p, c)` and contracted coordinate `k` is `(p, k)`. -/
theorem plain_lhsIdx {M K N : Nat} (p : Fin M) (c : Fin N) (k : Fin K) :
    (DotDims.plain M K N).lhsIdx (ix2 p c) ((contrEquiv1 (DotDims.plain M K N) K rfl rfl).symm k) = ix2 p k :=
  funext fun a => Fin.ext (by
    match a with
    | ⟨0, _⟩ => exact plain_lhs0 _ _
    | ⟨1, _⟩ =>
      exact ((DotDims.plain M K N).lhsIdx_val_of_single rfl _ _).trans
        (contrEquiv1_symm_val (DotDims.plain M K N) K rfl rfl k))

/-- The right operand's index at output entry `(p, c)` and contracted coordinate `k` is `(k, c)`. -/
theorem plain_rhsIdx {M K N : Nat} (p : Fin M) (c : Fin N) (k : Fin K) :
    (DotDims.plain M K N).rhsIdx (ix2 p c) ((contrEquiv1 (DotDims.plain M K N) K rfl rfl).symm k) = ix2 k c :=
  funext fun a => Fin.ext (by
    match a with
    | ⟨0, _⟩ =>
      exact ((DotDims.plain M K N).rhsIdx_val_of_single rfl _ _).trans
        (contrEquiv1_symm_val (DotDims.plain M K N) K rfl rfl k)
    | ⟨1, _⟩ => exact plain_rhs1 _ _)

/-- THE PRODUCT READ AT `(p, c)`: the sum over the contracted coordinate of the operands' products. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (c : Fin N) :
    FloatOps.matmul (DotDims.plain M K N) prec lhs rhs (constant ⟨2, ![M, N]⟩ .f32 0x00000000#32) (ix2 p c)
      = ∑ k : Fin K, lhs (ix2 p k) * rhs (ix2 k c) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.MatmulIdx

end
-- ==== Proof.Lin0.lean ====
/-
  Region 0 of the network: the linear projection of the node features.

  Every grid point stages a block of 2000 node rows and the whole 128×128 weight matrix and stores their matrix
  product (the change of float format before the product is the identity on extended reals). Read entry by entry,
  what point t writes back is block t of the array whose entry (n, q) is the sum over d of x (n, d) · w (d, q);
  the 25 row blocks cover the 50000 rows, so after the region the output array is that array.
-/
import proofs.«143285_j55765855371408_1_alg».proof.Proof.Gen.KernelIdeal.Frame
import proofs.«143285_j55765855371408_1_alg».proof.Proof.Spec
import proofs.«143285_j55765855371408_1_alg».proof.Proof.LibMatmulIdx
import Idealize.ShloMosaic.Lib.Pipeline.Value
import Idealize.ShloMosaic.Lib.ValueIdx

set_option maxRecDepth 16384

noncomputable section

open scoped BigOperators

namespace Cert.KernelIdeal.Lin0

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the three windows stage: the node features, the weight matrix, the projected features. -/
theorem arr_names : Pipeline.arrRef spec0 0 = main_arg0 ∧ Pipeline.arrRef spec0 1 = main_v31 ∧ Pipeline.arrRef spec0 2 = main_v32 :=
  ⟨rfl, rfl, rfl⟩

/-- The block's payload at row p, column q is the sum over d of x0 (p, d) · x1 (d, q). -/
theorem pay_apply (x0 : Vec Ideal S2000x128 .f32) (x1 : Vec Ideal S128x128 .f32) (p : Fin 2000) (q : Fin 128) :
    k0_pay1 (F := Ideal) x0 x1 (ix2 p q) = ∑ d : Fin 128, x0 (ix2 p d) * x1 (ix2 d q) := by
  unfold k0_pay1
  rw [shapeCast_self]
  exact Cert.MatmulIdx.matmul_plain_zero_apply none (truncf .bf16 x0 bitsLt_bf16_f32) (truncf .bf16 x1 bitsLt_bf16_f32) p q

/-- The zero offsets of a whole-buffer access, spelt as a constant function. -/
theorem hz : (![0, 0] : Fin 2 → Nat) = fun _ => 0 := funext fun a => by fin_cases a <;> rfl

/-- The index maps over the grid: the node window moves with the output window down the rows, the weight window
    stays at block (0, 0), and the output's row-block index is the point's number. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point t writes back is block t of the projection x · w of the arrays the region finds. -/
theorem flushed_eq (c : Dev nD) (t : Fin cfg0.N) :
    (dat0 (F := Ideal) V c).flushed 2 t = ((cfg0.win 2).blk t).view.read (Elt Ideal) (Cert.Gcn.lin (V c main_arg0) (V c main_v31)) := by
  show (cfg0.win 2).cut (grid0.coords t) ((dat0 V c).after 2 t) = _
  rw [after0_2]
  unfold out0_2
  rw [View.canon_unit_zero hz]
  simp only [View.ld_unit_zero (S := S2000x128) hz, View.ld_unit_zero (S := S128x128) hz]
  obtain ⟨e0, e1, e2, e3, e4, e5⟩ := idx_facts t
  refine funext fun (j : S2000x128.Idx) => ?_
  obtain ⟨p, q, rfl⟩ : ∃ (p : Fin 2000) (q : Fin 128), j = ix2 p q := ⟨j 0, j 1, eq_ix2 j⟩
  show k0_pay1 (F := Ideal) (iblk0 V c 0 t) (iblk0 V c 1 t) (ix2 p q) = Cert.Gcn.lin (V c main_arg0) (V c main_v31) (((cfg0.win 2).blk t).view.emb (ix2 p q))
  rw [pay_apply]
  unfold Cert.Gcn.lin
  refine Finset.sum_congr rfl fun d _ => ?_
  congr 1
  · show V c main_arg0 (((cfg0.win 0).blk t).view.emb (ix2 p d)) = V c main_arg0 (ix2 ((((cfg0.win 2).blk t).view.emb (ix2 p q)) 0) d)
    congr 1
    funext a; apply Fin.ext
    match a with
    | ⟨0, _⟩ => show win0_0.index t (0 : Fin 2) * 2000 + 1 * p.val = win0_2.index t (0 : Fin 2) * 2000 + 1 * p.val; omega
    | ⟨1, _⟩ => show win0_0.index t (1 : Fin 2) * 128 + 1 * d.val = d.val; omega
  · show V c main_v31 (((cfg0.win 1).blk t).view.emb (ix2 d q)) = V c main_v31 (ix2 d ((((cfg0.win 2).blk t).view.emb (ix2 p q)) 1))
    congr 1
    funext a; apply Fin.ext
    match a with
    | ⟨0, _⟩ => show win0_1.index t (0 : Fin 2) * 128 + 1 * d.val = d.val; omega
    | ⟨1, _⟩ => show win0_1.index t (1 : Fin 2) * 128 + 1 * q.val = win0_2.index t (1 : Fin 2) * 128 + 1 * q.val; omega

/-- An index of the array is in point t's block iff each coordinate is in the block's range on its axis. -/
theorem mem_blk (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- Every index of the array lies in the block of the point numbered by its row divided by 2000. -/
theorem cover (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨e0, e1, e2, e3, e4, e5⟩ := idx_facts t
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- After the region the output array holds the projection x · w of the arrays the region finds, entry by entry. -/
theorem value (c : Dev nD) :
    (dat0 (F := Ideal) V c).arrAt 2 cfg0.N = Cert.Gcn.lin (V c main_arg0) (V c main_v31) :=
  (dat0 (F := Ideal) V c).arrAt_eq_of_cover 2 (Cert.Gcn.lin (V c main_arg0) (V c main_v31)) (fun t _ => flushed_eq V c t) cover

end Cert.KernelIdeal.Lin0

end
-- ==== Proof.Lin2.lean ====
/-
  Region 2 of the network: the linear projection of the node features.

  Every grid point stages a block of 2000 node rows and the whole 128×128 weight matrix and stores their matrix
  product (the change of float format before the product is the identity on extended reals). Read entry by entry,
  what point t writes back is block t of the array whose entry (n, q) is the sum over d of x (n, d) · w (d, q);
  the 25 row blocks cover the 50000 rows, so after the region the output array is that array.
-/
import proofs.«143285_j55765855371408_1_alg».proof.Proof.Gen.KernelIdeal.Frame
import proofs.«143285_j55765855371408_1_alg».proof.Proof.Spec
import proofs.«143285_j55765855371408_1_alg».proof.Proof.LibMatmulIdx
import Idealize.ShloMosaic.Lib.Pipeline.Value
import Idealize.ShloMosaic.Lib.ValueIdx

set_option maxRecDepth 16384

noncomputable section

open scoped BigOperators

namespace Cert.KernelIdeal.Lin2

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the three windows stage: the node features, the weight matrix, the projected features. -/
theorem arr_names : Pipeline.arrRef spec2 0 = main_v49 ∧ Pipeline.arrRef spec2 1 = main_v51 ∧ Pipeline.arrRef spec2 2 = main_v52 :=
  ⟨rfl, rfl, rfl⟩

/-- The block's payload at row p, column q is the sum over d of x0 (p, d) · x1 (d, q). -/
theorem pay_apply (x0 : Vec Ideal S2000x128 .f32) (x1 : Vec Ideal S128x128 .f32) (p : Fin 2000) (q : Fin 128) :
    k2_pay1 (F := Ideal) x0 x1 (ix2 p q) = ∑ d : Fin 128, x0 (ix2 p d) * x1 (ix2 d q) := by
  unfold k2_pay1
  rw [shapeCast_self, shapeCast_self]
  exact Cert.MatmulIdx.matmul_plain_zero_apply none (truncf .bf16 x0 bitsLt_bf16_f32) (truncf .bf16 x1 bitsLt_bf16_f32) p q

/-- The zero offsets of a whole-buffer access, spelt as a constant function. -/
theorem hz : (![0, 0] : Fin 2 → Nat) = fun _ => 0 := funext fun a => by fin_cases a <;> rfl

/-- The index maps over the grid: the node window moves with the output window down the rows, the weight window
    stays at block (0, 0), and the output's row-block index is the point's number. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- What point t writes back is block t of the projection x · w of the arrays the region finds. -/
theorem flushed_eq (c : Dev nD) (t : Fin cfg2.N) :
    (dat2 (F := Ideal) V c).flushed 2 t = ((cfg2.win 2).blk t).view.read (Elt Ideal) (Cert.Gcn.lin (V c main_v49) (V c main_v51)) := by
  show (cfg2.win 2).cut (grid2.coords t) ((dat2 V c).after 2 t) = _
  rw [after2_2]
  unfold out2_2
  rw [View.canon_unit_zero hz]
  simp only [View.ld_unit_zero (S := S2000x128) hz, View.ld_unit_zero (S := S128x128) hz]
  obtain ⟨e0, e1, e2, e3, e4, e5⟩ := idx_facts t
  refine funext fun (j : S2000x128.Idx) => ?_
  obtain ⟨p, q, rfl⟩ : ∃ (p : Fin 2000) (q : Fin 128), j = ix2 p q := ⟨j 0, j 1, eq_ix2 j⟩
  show k2_pay1 (F := Ideal) (iblk2 V c 0 t) (iblk2 V c 1 t) (ix2 p q) = Cert.Gcn.lin (V c main_v49) (V c main_v51) (((cfg2.win 2).blk t).view.emb (ix2 p q))
  rw [pay_apply]
  unfold Cert.Gcn.lin
  refine Finset.sum_congr rfl fun d _ => ?_
  congr 1
  · show V c main_v49 (((cfg2.win 0).blk t).view.emb (ix2 p d)) = V c main_v49 (ix2 ((((cfg2.win 2).blk t).view.emb (ix2 p q)) 0) d)
    congr 1
    funext a; apply Fin.ext
    match a with
    | ⟨0, _⟩ => show win2_0.index t (0 : Fin 2) * 2000 + 1 * p.val = win2_2.index t (0 : Fin 2) * 2000 + 1 * p.val; omega
    | ⟨1, _⟩ => show win2_0.index t (1 : Fin 2) * 128 + 1 * d.val = d.val; omega
  · show V c main_v51 (((cfg2.win 1).blk t).view.emb (ix2 d q)) = V c main_v51 (ix2 d ((((cfg2.win 2).blk t).view.emb (ix2 p q)) 1))
    congr 1
    funext a; apply Fin.ext
    match a with
    | ⟨0, _⟩ => show win2_1.index t (0 : Fin 2) * 128 + 1 * d.val = d.val; omega
    | ⟨1, _⟩ => show win2_1.index t (1 : Fin 2) * 128 + 1 * q.val = win2_2.index t (1 : Fin 2) * 128 + 1 * q.val; omega

/-- An index of the array is in point t's block iff each coordinate is in the block's range on its axis. -/
theorem mem_blk (t : Fin cfg2.N) (i : S50000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v52).slice (win2_2.rect t)).set ↔ _
  rw [View.set_slice_whole, Rect.mem_set_unit]
  exact Iff.rfl

/-- Every index of the array lies in the block of the point numbered by its row divided by 2000. -/
theorem cover (i : S50000x128.Idx) : ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨e0, e1, e2, e3, e4, e5⟩ := idx_facts t
  refine ⟨t, flush2_2 t, ?_⟩
  rw [mem_blk]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- After the region the output array holds the projection x · w of the arrays the region finds, entry by entry. -/
theorem value (c : Dev nD) :
    (dat2 (F := Ideal) V c).arrAt 2 cfg2.N = Cert.Gcn.lin (V c main_v49) (V c main_v51) :=
  (dat2 (F := Ideal) V c).arrAt_eq_of_cover 2 (Cert.Gcn.lin (V c main_v49) (V c main_v51)) (fun t _ => flushed_eq V c t) cover

end Cert.KernelIdeal.Lin2

end
-- ==== Proof.Lin4.lean ====
/-
  Region 4 of the network: the linear projection of the node features.

  Every grid point stages a block of 2000 node rows and the whole 128×128 weight matrix and stores their matrix
  product (the change of float format before the product is the identity on extended reals). Read entry by entry,
  what point t writes back is block t of the array whose entry (n, q) is the sum over d of x (n, d) · w (d, q);
  the 25 row blocks cover the 50000 rows, so after the region the output array is that array.
-/
import proofs.«143285_j55765855371408_1_alg».proof.Proof.Gen.KernelIdeal.Frame
import proofs.«143285_j55765855371408_1_alg».proof.Proof.Spec
import proofs.«143285_j55765855371408_1_alg».proof.Proof.LibMatmulIdx
import Idealize.ShloMosaic.Lib.Pipeline.Value
import Idealize.ShloMosaic.Lib.ValueIdx

set_option maxRecDepth 16384

noncomputable section

open scoped BigOperators

namespace Cert.KernelIdeal.Lin4

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The arrays the three windows stage: the node features, the weight matrix, the projected features. -/
theorem arr_names : Pipeline.arrRef spec4 0 = main_v69 ∧ Pipeline.arrRef spec4 1 = main_v71 ∧ Pipeline.arrRef spec4 2 = main_v72 :=
  ⟨rfl, rfl, rfl⟩

/-- The block's payload at row p, column q is the sum over d of x0 (p, d) · x1 (d, q). -/
theorem pay_apply (x0 : Vec Ideal S2000x128 .f32) (x1 : Vec Ideal S128x128 .f32) (p : Fin 2000) (q : Fin 128) :
    k4_pay1 (F := Ideal) x0 x1 (ix2 p q) = ∑ d : Fin 128, x0 (ix2 p d) * x1 (ix2 d q) := by
  unfold k4_pay1
  rw [shapeCast_self, shapeCast_self]
  exact Cert.MatmulIdx.matmul_plain_zero_apply none (truncf .bf16 x0 bitsLt_bf16_f32) (truncf .bf16 x1 bitsLt_bf16_f32) p q

/-- The zero offsets of a whole-buffer access, spelt as a constant function. -/
theorem hz : (![0, 0] : Fin 2 → Nat) = fun _ => 0 := funext fun a => by fin_cases a <;> rfl

/-- The index maps over the grid: the node window moves with the output window down the rows, the weight window
    stays at block (0, 0), and the output's row-block index is the point's number. -/
theorem idx_facts : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- What point t writes back is block t of the projection x · w of the arrays the region finds. -/
theorem flushed_eq (c : Dev nD) (t : Fin cfg4.N) :
    (dat4 (F := Ideal) V c).flushed 2 t = ((cfg4.win 2).blk t).view.read (Elt Ideal) (Cert.Gcn.lin (V c main_v69) (V c main_v71)) := by
  show (cfg4.win 2).cut (grid4.coords t) ((dat4 V c).after 2 t) = _
  rw [after4_2]
  unfold out4_2
  rw [View.canon_unit_zero hz]
  simp only [View.ld_unit_zero (S := S2000x128) hz, View.ld_unit_zero (S := S128x128) hz]
  obtain ⟨e0, e1, e2, e3, e4, e5⟩ := idx_facts t
  refine funext fun (j : S2000x128.Idx) => ?_
  obtain ⟨p, q, rfl⟩ : ∃ (p : Fin 2000) (q : Fin 128), j = ix2 p q := ⟨j 0, j 1, eq_ix2 j⟩
  show k4_pay1 (F := Ideal) (iblk4 V c 0 t) (iblk4 V c 1 t) (ix2 p q) = Cert.Gcn.lin (V c main_v69) (V c main_v71) (((cfg4.win 2).blk t).view.emb (ix2 p q))
  rw [pay_apply]
  unfold Cert.Gcn.lin
  refine Finset.sum_congr rfl fun d _ => ?_
  congr 1
  · show V c main_v69 (((cfg4.win 0).blk t).view.emb (ix2 p d)) = V c main_v69 (ix2 ((((cfg4.win 2).blk t).view.emb (ix2 p q)) 0) d)
    congr 1
    funext a; apply Fin.ext
    match a with
    | ⟨0, _⟩ => show win4_0.index t (0 : Fin 2) * 2000 + 1 * p.val = win4_2.index t (0 : Fin 2) * 2000 + 1 * p.val; omega
    | ⟨1, _⟩ => show win4_0.index t (1 : Fin 2) * 128 + 1 * d.val = d.val; omega
  · show V c main_v71 (((cfg4.win 1).blk t).view.emb (ix2 d q)) = V c main_v71 (ix2 d ((((cfg4.win 2).blk t).view.emb (ix2 p q)) 1))
    congr 1
    funext a; apply Fin.ext
    match a with
    | ⟨0, _⟩ => show win4_1.index t (0 : Fin 2) * 128 + 1 * d.val = d.val; omega
    | ⟨1, _⟩ => show win4_1.index t (1 : Fin 2) * 128 + 1 * q.val = win4_2.index t (1 : Fin 2) * 128 + 1 * q.val; omega

/-- An index of the array is in point t's block iff each coordinate is in the block's range on its axis. -/
theorem mem_blk (t : Fin cfg4.N) (i : S50000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v72).slice (win4_2.rect t)).set ↔ _
  rw [View.set_slice_whole, Rect.mem_set_unit]
  exact Iff.rfl

/-- Every index of the array lies in the block of the point numbered by its row divided by 2000. -/
theorem cover (i : S50000x128.Idx) : ∃ t : Fin cfg4.N, (cfg4.win 2).flush t = true ∧ i ∈ ((cfg4.win 2).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨e0, e1, e2, e3, e4, e5⟩ := idx_facts t
  refine ⟨t, flush4_2 t, ?_⟩
  rw [mem_blk]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- After the region the output array holds the projection x · w of the arrays the region finds, entry by entry. -/
theorem value (c : Dev nD) :
    (dat4 (F := Ideal) V c).arrAt 2 cfg4.N = Cert.Gcn.lin (V c main_v69) (V c main_v71) :=
  (dat4 (F := Ideal) V c).arrAt_eq_of_cover 2 (Cert.Gcn.lin (V c main_v69) (V c main_v71)) (fun t _ => flushed_eq V c t) cover

end Cert.KernelIdeal.Lin4

end
-- ==== Proof.Bias1.lean ====
/-
  The bias-and-cut-off pass of layer 1, read as one function of its two arrays.

  The pass runs over 25 grid points; point t loads rows 2000·t … 2000·t + 1999 of the aggregated array and the one
  bias row, adds the row to every loaded row, takes the maximum with zero, and writes the 2000 rows back to the same
  rows of the output array. Entry by entry that is `Cert.Gcn.biasRelu`: the block a point writes back is that
  function read through the point's rows, and the 25 blocks cover all 50000 rows.
-/
import proofs.«143285_j55765855371408_1_alg».proof.Proof.Gen.KernelIdeal.Frame
import proofs.«143285_j55765855371408_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Bias1

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offset of a whole-block access, as a function. -/
theorem hz : (![0, 0] : Fin 2 → Nat) = fun _ => 0 := funext fun a => by fin_cases a <;> rfl

/-- The payload at an index: the block entry plus the row's entry in that column, cut off below at zero. -/
theorem pay_apply (x0 : Vec Ideal S2000x128 .f32) (x1 : Vec Ideal S1x128 .f32) (p : Fin 2000) (q : Fin 128) :
    k1_pay1 (F := Ideal) x0 x1 (ix2 p q) = max (x0 (ix2 p q) + x1 (ix2 (0 : Fin 1) q)) (Ideal.ofBits .f32 0x00000000#32) := by
  unfold k1_pay1
  rw [shapeCast_self, shapeCast_self]
  rw [maximumf_apply, addf_apply, broadcast_apply, broadcastTo_1b_ab_apply]
  rfl

/-- The block index maps over the grid: the node window's row block is the output's, which is the point's number; every
    column block, and the bias row's block, is block zero. -/
theorem idx_facts : ∀ t : Fin cfg1.N, win1_0.index t (0 : Fin 2) = win1_2.index t (0 : Fin 2)
    ∧ win1_0.index t (1 : Fin 2) = win1_2.index t (1 : Fin 2)
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- A block entry of the payload is the array function's entry wherever the two loaded blocks read the arrays there. -/
theorem pay_eq_of_reads (A : FVec Ideal S50000x128 .f32) (B : FVec Ideal S1x128 .f32)
    (x0 : Vec Ideal S2000x128 .f32) (x1 : Vec Ideal S1x128 .f32) (i : S50000x128.Idx) (p : Fin 2000) (q : Fin 128)
    (h0 : x0 (ix2 p q) = A i) (h1 : x1 (ix2 (0 : Fin 1) q) = B (ix2 (0 : Fin 1) (i 1))) :
    k1_pay1 (F := Ideal) x0 x1 (ix2 p q) = Cert.Gcn.biasRelu A B i := by
  rw [pay_apply, h0, h1]
  rfl

/-- What point t writes back is block t of the bias-and-cut-off of the two arrays as the region finds them. -/
theorem flushed_eq (c : Dev nD) (t : Fin cfg1.N) :
    (dat1 (F := Ideal) V c).flushed 2 t = ((cfg1.win 2).blk t).view.read (Elt Ideal) (Cert.Gcn.biasRelu (V c main_v45) (V c main_v48)) := by
  show (cfg1.win 2).cut (grid1.coords t) ((dat1 V c).after 2 t) = _
  rw [after1_2]
  unfold out1_2
  rw [View.canon_unit_zero hz]
  simp only [View.ld_unit_zero (S := S2000x128) hz, View.ld_unit_zero (S := S1x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  show k1_pay1 (iblk1 V c 0 t) (iblk1 V c 1 t) (ix2 p q) = Cert.Gcn.biasRelu (V c main_v45) (V c main_v48) (((cfg1.win 2).blk t).view.emb (ix2 p q))
  refine pay_eq_of_reads (V c main_v45) (V c main_v48) (iblk1 V c 0 t) (iblk1 V c 1 t) _ p q ?_ ?_
  · show V c main_v45 (((cfg1.win 0).blk t).view.emb (ix2 p q)) = V c main_v45 (((cfg1.win 2).blk t).view.emb (ix2 p q))
    refine congrArg _ ?_
    funext a; apply Fin.ext
    match a with
    | ⟨0, _⟩ => show win1_0.index t (0 : Fin 2) * 2000 + 1 * p.val = win1_2.index t (0 : Fin 2) * 2000 + 1 * p.val; omega
    | ⟨1, _⟩ => show win1_0.index t (1 : Fin 2) * 128 + 1 * q.val = win1_2.index t (1 : Fin 2) * 128 + 1 * q.val; omega
  · show V c main_v48 (((cfg1.win 1).blk t).view.emb (ix2 (0 : Fin 1) q)) = V c main_v48 (ix2 (0 : Fin 1) ((((cfg1.win 2).blk t).view.emb (ix2 p q)) 1))
    refine congrArg _ ?_
    funext a; apply Fin.ext
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega

/-- An index of the array is in point t's block iff each coordinate is in the block's range on its axis. -/
theorem mem_blk (t : Fin cfg1.N) (i : S50000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v49).slice (win1_2.rect t)).set ↔ _
  rw [View.set_slice_whole, Rect.mem_set_unit]
  exact Iff.rfl

/-- Every index of the array is in the block of the point numbered by its row divided by the block's 2000 rows. -/
theorem cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 25 := N_1
  obtain ⟨t, ht⟩ : ∃ t : Fin cfg1.N, t.val = (i 0).val / 2000 := ⟨⟨(i 0).val / 2000, by show _ < grid1.N; rw [hN]; omega⟩, rfl⟩
  obtain ⟨e0, e1, e2, e3, e4, e5⟩ := idx_facts t
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The output array after the region: the bias row added to every row of the aggregated array, cut off below at zero. -/
theorem value (c : Dev nD) :
    (dat1 (F := Ideal) V c).arrAt 2 cfg1.N = Cert.Gcn.biasRelu (V c main_v45) (V c main_v48) :=
  (dat1 (F := Ideal) V c).arrAt_eq_of_cover 2 (Cert.Gcn.biasRelu (V c main_v45) (V c main_v48)) (fun t _ => flushed_eq V c t) cover

end Cert.KernelIdeal.Bias1

end
-- ==== Proof.Bias3.lean ====
/-
  The bias-and-cut-off pass of layer 2, read as one function of its two arrays.

  The pass runs over 25 grid points; point t loads rows 2000·t … 2000·t + 1999 of the aggregated array and the one
  bias row, adds the row to every loaded row, takes the maximum with zero, and writes the 2000 rows back to the same
  rows of the output array. Entry by entry that is `Cert.Gcn.biasRelu`: the block a point writes back is that
  function read through the point's rows, and the 25 blocks cover all 50000 rows.
-/
import proofs.«143285_j55765855371408_1_alg».proof.Proof.Gen.KernelIdeal.Frame
import proofs.«143285_j55765855371408_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Bias3

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offset of a whole-block access, as a function. -/
theorem hz : (![0, 0] : Fin 2 → Nat) = fun _ => 0 := funext fun a => by fin_cases a <;> rfl

/-- The payload at an index: the block entry plus the row's entry in that column, cut off below at zero. -/
theorem pay_apply (x0 : Vec Ideal S2000x128 .f32) (x1 : Vec Ideal S1x128 .f32) (p : Fin 2000) (q : Fin 128) :
    k3_pay1 (F := Ideal) x0 x1 (ix2 p q) = max (x0 (ix2 p q) + x1 (ix2 (0 : Fin 1) q)) (Ideal.ofBits .f32 0x00000000#32) := by
  unfold k3_pay1
  rw [shapeCast_self, shapeCast_self]
  rw [maximumf_apply, addf_apply, broadcast_apply, broadcastTo_1b_ab_apply]
  rfl

/-- The block index maps over the grid: the node window's row block is the output's, which is the point's number; every
    column block, and the bias row's block, is block zero. -/
theorem idx_facts : ∀ t : Fin cfg3.N, win3_0.index t (0 : Fin 2) = win3_2.index t (0 : Fin 2)
    ∧ win3_0.index t (1 : Fin 2) = win3_2.index t (1 : Fin 2)
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- A block entry of the payload is the array function's entry wherever the two loaded blocks read the arrays there. -/
theorem pay_eq_of_reads (A : FVec Ideal S50000x128 .f32) (B : FVec Ideal S1x128 .f32)
    (x0 : Vec Ideal S2000x128 .f32) (x1 : Vec Ideal S1x128 .f32) (i : S50000x128.Idx) (p : Fin 2000) (q : Fin 128)
    (h0 : x0 (ix2 p q) = A i) (h1 : x1 (ix2 (0 : Fin 1) q) = B (ix2 (0 : Fin 1) (i 1))) :
    k3_pay1 (F := Ideal) x0 x1 (ix2 p q) = Cert.Gcn.biasRelu A B i := by
  rw [pay_apply, h0, h1]
  rfl

/-- What point t writes back is block t of the bias-and-cut-off of the two arrays as the region finds them. -/
theorem flushed_eq (c : Dev nD) (t : Fin cfg3.N) :
    (dat3 (F := Ideal) V c).flushed 2 t = ((cfg3.win 2).blk t).view.read (Elt Ideal) (Cert.Gcn.biasRelu (V c main_v65) (V c main_v68)) := by
  show (cfg3.win 2).cut (grid3.coords t) ((dat3 V c).after 2 t) = _
  rw [after3_2]
  unfold out3_2
  rw [View.canon_unit_zero hz]
  simp only [View.ld_unit_zero (S := S2000x128) hz, View.ld_unit_zero (S := S1x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  show k3_pay1 (iblk3 V c 0 t) (iblk3 V c 1 t) (ix2 p q) = Cert.Gcn.biasRelu (V c main_v65) (V c main_v68) (((cfg3.win 2).blk t).view.emb (ix2 p q))
  refine pay_eq_of_reads (V c main_v65) (V c main_v68) (iblk3 V c 0 t) (iblk3 V c 1 t) _ p q ?_ ?_
  · show V c main_v65 (((cfg3.win 0).blk t).view.emb (ix2 p q)) = V c main_v65 (((cfg3.win 2).blk t).view.emb (ix2 p q))
    refine congrArg _ ?_
    funext a; apply Fin.ext
    match a with
    | ⟨0, _⟩ => show win3_0.index t (0 : Fin 2) * 2000 + 1 * p.val = win3_2.index t (0 : Fin 2) * 2000 + 1 * p.val; omega
    | ⟨1, _⟩ => show win3_0.index t (1 : Fin 2) * 128 + 1 * q.val = win3_2.index t (1 : Fin 2) * 128 + 1 * q.val; omega
  · show V c main_v68 (((cfg3.win 1).blk t).view.emb (ix2 (0 : Fin 1) q)) = V c main_v68 (ix2 (0 : Fin 1) ((((cfg3.win 2).blk t).view.emb (ix2 p q)) 1))
    refine congrArg _ ?_
    funext a; apply Fin.ext
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega

/-- An index of the array is in point t's block iff each coordinate is in the block's range on its axis. -/
theorem mem_blk (t : Fin cfg3.N) (i : S50000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v69).slice (win3_2.rect t)).set ↔ _
  rw [View.set_slice_whole, Rect.mem_set_unit]
  exact Iff.rfl

/-- Every index of the array is in the block of the point numbered by its row divided by the block's 2000 rows. -/
theorem cover (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  have hN : grid3.N = 25 := N_3
  obtain ⟨t, ht⟩ : ∃ t : Fin cfg3.N, t.val = (i 0).val / 2000 := ⟨⟨(i 0).val / 2000, by show _ < grid3.N; rw [hN]; omega⟩, rfl⟩
  obtain ⟨e0, e1, e2, e3, e4, e5⟩ := idx_facts t
  refine ⟨t, flush3_2 t, ?_⟩
  rw [mem_blk]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The output array after the region: the bias row added to every row of the aggregated array, cut off below at zero. -/
theorem value (c : Dev nD) :
    (dat3 (F := Ideal) V c).arrAt 2 cfg3.N = Cert.Gcn.biasRelu (V c main_v65) (V c main_v68) :=
  (dat3 (F := Ideal) V c).arrAt_eq_of_cover 2 (Cert.Gcn.biasRelu (V c main_v65) (V c main_v68)) (fun t _ => flushed_eq V c t) cover

end Cert.KernelIdeal.Bias3

end
-- ==== Proof.Bias5.lean ====
/-
  The bias-and-cut-off pass of layer 3, read as one function of its two arrays.

  The pass runs over 25 grid points; point t loads rows 2000·t … 2000·t + 1999 of the aggregated array and the one
  bias row, adds the row to every loaded row, takes the maximum with zero, and writes the 2000 rows back to the same
  rows of the output array. Entry by entry that is `Cert.Gcn.biasRelu`: the block a point writes back is that
  function read through the point's rows, and the 25 blocks cover all 50000 rows.
-/
import proofs.«143285_j55765855371408_1_alg».proof.Proof.Gen.KernelIdeal.Frame
import proofs.«143285_j55765855371408_1_alg».proof.Proof.Spec
import Idealize.ShloMosaic.Lib.ValueIdx
import Idealize.ShloMosaic.Lib.ValueLayout
import Idealize.ShloMosaic.Lib.Pipeline.Value

set_option maxRecDepth 16384

noncomputable section

namespace Cert.KernelIdeal.Bias5

open Cert.KernelIdeal Cert.KernelIdeal.Gen Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offset of a whole-block access, as a function. -/
theorem hz : (![0, 0] : Fin 2 → Nat) = fun _ => 0 := funext fun a => by fin_cases a <;> rfl

/-- The payload at an index: the block entry plus the row's entry in that column, cut off below at zero. -/
theorem pay_apply (x0 : Vec Ideal S2000x128 .f32) (x1 : Vec Ideal S1x128 .f32) (p : Fin 2000) (q : Fin 128) :
    k5_pay1 (F := Ideal) x0 x1 (ix2 p q) = max (x0 (ix2 p q) + x1 (ix2 (0 : Fin 1) q)) (Ideal.ofBits .f32 0x00000000#32) := by
  unfold k5_pay1
  rw [shapeCast_self, shapeCast_self]
  rw [maximumf_apply, addf_apply, broadcast_apply, broadcastTo_1b_ab_apply]
  rfl

/-- The block index maps over the grid: the node window's row block is the output's, which is the point's number; every
    column block, and the bias row's block, is block zero. -/
theorem idx_facts : ∀ t : Fin cfg5.N, win5_0.index t (0 : Fin 2) = win5_2.index t (0 : Fin 2)
    ∧ win5_0.index t (1 : Fin 2) = win5_2.index t (1 : Fin 2)
    ∧ win5_1.index t (0 : Fin 2) = 0
    ∧ win5_1.index t (1 : Fin 2) = 0
    ∧ win5_2.index t (0 : Fin 2) = t.val
    ∧ win5_2.index t (1 : Fin 2) = 0 :=
  (by decide +kernel : ∀ t : Fin grid5.N, _)

/-- A block entry of the payload is the array function's entry wherever the two loaded blocks read the arrays there. -/
theorem pay_eq_of_reads (A : FVec Ideal S50000x128 .f32) (B : FVec Ideal S1x128 .f32)
    (x0 : Vec Ideal S2000x128 .f32) (x1 : Vec Ideal S1x128 .f32) (i : S50000x128.Idx) (p : Fin 2000) (q : Fin 128)
    (h0 : x0 (ix2 p q) = A i) (h1 : x1 (ix2 (0 : Fin 1) q) = B (ix2 (0 : Fin 1) (i 1))) :
    k5_pay1 (F := Ideal) x0 x1 (ix2 p q) = Cert.Gcn.biasRelu A B i := by
  rw [pay_apply, h0, h1]
  rfl

/-- What point t writes back is block t of the bias-and-cut-off of the two arrays as the region finds them. -/
theorem flushed_eq (c : Dev nD) (t : Fin cfg5.N) :
    (dat5 (F := Ideal) V c).flushed 2 t = ((cfg5.win 2).blk t).view.read (Elt Ideal) (Cert.Gcn.biasRelu (V c main_v85) (V c main_v88)) := by
  show (cfg5.win 2).cut (grid5.coords t) ((dat5 V c).after 2 t) = _
  rw [after5_2]
  unfold out5_2
  rw [View.canon_unit_zero hz]
  simp only [View.ld_unit_zero (S := S2000x128) hz, View.ld_unit_zero (S := S1x128) hz]
  obtain ⟨e0, e1, e2, e3, e4, e5⟩ := idx_facts t
  funext j
  obtain ⟨p, q, rfl⟩ : ∃ (p : Fin 2000) (q : Fin 128), j = ix2 p q := ⟨j 0, j 1, eq_ix2 j⟩
  show k5_pay1 (iblk5 V c 0 t) (iblk5 V c 1 t) (ix2 p q) = Cert.Gcn.biasRelu (V c main_v85) (V c main_v88) (((cfg5.win 2).blk t).view.emb (ix2 p q))
  refine pay_eq_of_reads (V c main_v85) (V c main_v88) (iblk5 V c 0 t) (iblk5 V c 1 t) _ p q ?_ ?_
  · show V c main_v85 (((cfg5.win 0).blk t).view.emb (ix2 p q)) = V c main_v85 (((cfg5.win 2).blk t).view.emb (ix2 p q))
    refine congrArg _ ?_
    funext a; apply Fin.ext
    match a with
    | ⟨0, _⟩ => show win5_0.index t (0 : Fin 2) * 2000 + 1 * p.val = win5_2.index t (0 : Fin 2) * 2000 + 1 * p.val; omega
    | ⟨1, _⟩ => show win5_0.index t (1 : Fin 2) * 128 + 1 * q.val = win5_2.index t (1 : Fin 2) * 128 + 1 * q.val; omega
  · show V c main_v88 (((cfg5.win 1).blk t).view.emb (ix2 (0 : Fin 1) q)) = V c main_v88 (ix2 (0 : Fin 1) ((((cfg5.win 2).blk t).view.emb (ix2 p q)) 1))
    refine congrArg _ ?_
    funext a; apply Fin.ext
    match a with
    | ⟨0, _⟩ => show win5_1.index t (0 : Fin 2) * 1 + 1 * 0 = 0; omega
    | ⟨1, _⟩ => show win5_1.index t (1 : Fin 2) * 128 + 1 * q.val = win5_2.index t (1 : Fin 2) * 128 + 1 * q.val; omega

/-- An index of the array is in point t's block iff each coordinate is in the block's range on its axis. -/
theorem mem_blk (t : Fin cfg5.N) (i : S50000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v89).slice (win5_2.rect t)).set ↔ _
  rw [View.set_slice_whole, Rect.mem_set_unit]
  exact Iff.rfl

/-- Every index of the array is in the block of the point numbered by its row divided by the block's 2000 rows. -/
theorem cover (i : S50000x128.Idx) :
    ∃ t : Fin cfg5.N, (cfg5.win 2).flush t = true ∧ i ∈ ((cfg5.win 2).blk t).view.set := by
  have hi0 : (i 0).val < 50000 := (i 0).isLt
  have hi1 : (i 1).val < 128 := (i 1).isLt
  have hN : grid5.N = 25 := N_5
  obtain ⟨t, ht⟩ : ∃ t : Fin cfg5.N, t.val = (i 0).val / 2000 := ⟨⟨(i 0).val / 2000, by show _ < grid5.N; rw [hN]; omega⟩, rfl⟩
  obtain ⟨e0, e1, e2, e3, e4, e5⟩ := idx_facts t
  refine ⟨t, flush5_2 t, ?_⟩
  rw [mem_blk]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- The output array after the region: the bias row added to every row of the aggregated array, cut off below at zero. -/
theorem value (c : Dev nD) :
    (dat5 (F := Ideal) V c).arrAt 2 cfg5.N = Cert.Gcn.biasRelu (V c main_v85) (V c main_v88) :=
  (dat5 (F := Ideal) V c).arrAt_eq_of_cover 2 (Cert.Gcn.biasRelu (V c main_v85) (V c main_v88)) (fun t _ => flushed_eq V c t) cover

end Cert.KernelIdeal.Bias5

end
-- ==== Proof.Head6.lean ====
/-
  The head, read as one function of its three arrays.

  The pass runs over 25 grid points; point t loads rows 2000·t … 2000·t + 1999 of the node array, the whole 128×64
  weight matrix and the one bias row, multiplies the loaded rows by the matrix (the change of the operands' float
  format is the identity on extended reals), adds the bias row to every row, and writes the 2000 rows back to the
  same rows of the output array. Entry by entry that is `Cert.Gcn.head`: the block a point writes back is that
  function read through the point's rows, and the 25 blocks cover all 50000 rows.
-/
import proofs.«143285_j55765855371408_1_alg».proof.Proof.Gen.KernelIdeal.Frame
import proofs.«143285_j55765855371408_1_alg».proof.Proof.Spec
import Idealize.ShloMosaic.Lib.ValueIdx
import Idealize.ShloMosaic.Lib.ValueLayout
import Idealize.ShloMosaic.Lib.Pipeline.Value
import Idealize.ShloMosaic.PureOps.Ideal.Laws
import proofs.«143285_j55765855371408_1_alg».proof.Proof.LibMatmulIdx
set_option maxRecDepth 16384

noncomputable section

namespace Cert.KernelIdeal.Head6

open Cert.KernelIdeal Cert.KernelIdeal.Gen Idealize.ShloMosaic Idealize.ShloMosaic.TcCoe Idealize.ShloMosaic.ValueIdx Idealize.SL.Sem

/-- The payload at an index: the row of the node block against the column of the weight matrix, plus the bias row's entry. -/
theorem pay_apply (x0 : Vec Ideal S2000x128 .f32) (x1 : Vec Ideal S128x64 .f32) (x2 : Vec Ideal S1x64 .f32) (p : Fin 2000) (q : Fin 64) :
    k6_pay1 (F := Ideal) x0 x1 x2 (ix2 p q) = (∑ d : Fin 128, x0 (ix2 p d) * x1 (ix2 d q)) + x2 (ix2 (0 : Fin 1) q) := by
  unfold k6_pay1
  rw [shapeCast_self, shapeCast_self]
  rw [addf_apply, broadcastTo_1b_ab_apply]
  refine congrArg (· + x2 (ix2 (0 : Fin 1) q)) ?_
  rw [show dot_S2000x128_S128x64_S2000x64_1_0_0_1_n_n = DotDims.plain 2000 128 64 from rfl]
  exact Cert.MatmulIdx.matmul_plain_zero_apply none _ _ p q

variable (V : (c : Dev nD) → (b : Ref sig .tc) → Buf (Elt Ideal) ((c : Thread nD τ).loc b))

/-- The zero offset of a whole-block access, as a function. -/
theorem hz : (![0, 0] : Fin 2 → Nat) = fun _ => 0 := funext fun a => by fin_cases a <;> rfl

/-- The block index maps over the grid: the node window's row block is the output's, which is the point's number; every
    column block, and the blocks of the weight matrix and of the bias row, are block zero. -/
theorem idx_facts : ∀ t : Fin cfg6.N, win6_0.index t (0 : Fin 2) = win6_3.index t (0 : Fin 2)
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

/-- A block entry of the payload is the array function's entry wherever the three loaded blocks read the arrays there. -/
theorem pay_eq_of_reads (A : FVec Ideal S50000x128 .f32) (W : FVec Ideal S128x64 .f32) (B : FVec Ideal S1x64 .f32)
    (x0 : Vec Ideal S2000x128 .f32) (x1 : Vec Ideal S128x64 .f32) (x2 : Vec Ideal S1x64 .f32)
    (i : S50000x64.Idx) (p : Fin 2000) (q : Fin 64)
    (h0 : ∀ d : Fin 128, x0 (ix2 p d) = A (ix2 (i 0) d)) (h1 : ∀ d : Fin 128, x1 (ix2 d q) = W (ix2 d (i 1)))
    (h2 : x2 (ix2 (0 : Fin 1) q) = B (ix2 (0 : Fin 1) (i 1))) :
    k6_pay1 (F := Ideal) x0 x1 x2 (ix2 p q) = Cert.Gcn.head A W B i := by
  rw [pay_apply, h2]
  show _ = (∑ d : Fin 128, A (ix2 (i 0) d) * W (ix2 d (i 1))) + B (ix2 (0 : Fin 1) (i 1))
  refine congrArg (· + B (ix2 (0 : Fin 1) (i 1))) (Finset.sum_congr rfl fun d _ => ?_)
  rw [h0 d, h1 d]

/-- What point t writes back is block t of the head's function of the three arrays as the region finds them. -/
theorem flushed_eq (c : Dev nD) (t : Fin cfg6.N) :
    (dat6 (F := Ideal) V c).flushed 3 t = ((cfg6.win 3).blk t).view.read (Elt Ideal) (Cert.Gcn.head (V c main_v89) (V c main_arg4) (V c main_v90)) := by
  show (cfg6.win 3).cut (grid6.coords t) ((dat6 V c).after 3 t) = _
  rw [after6_3]
  unfold out6_3
  rw [View.canon_unit_zero hz]
  simp only [View.ld_unit_zero (S := S2000x128) hz, View.ld_unit_zero (S := S128x64) hz, View.ld_unit_zero (S := S1x64) hz]
  obtain ⟨e0, e1, e2, e3, e4, e5, e6, e7⟩ := idx_facts t
  funext j
  obtain ⟨p, q, rfl⟩ : ∃ (p : Fin 2000) (q : Fin 64), j = ix2 p q := ⟨j 0, j 1, eq_ix2 j⟩
  show k6_pay1 (iblk6 V c 0 t) (iblk6 V c 1 t) (iblk6 V c 2 t) (ix2 p q)
    = Cert.Gcn.head (V c main_v89) (V c main_arg4) (V c main_v90) (((cfg6.win 3).blk t).view.emb (ix2 p q))
  refine pay_eq_of_reads (V c main_v89) (V c main_arg4) (V c main_v90) (iblk6 V c 0 t) (iblk6 V c 1 t) (iblk6 V c 2 t) _ p q ?_ ?_ ?_
  · intro d
    show V c main_v89 (((cfg6.win 0).blk t).view.emb (ix2 p d)) = V c main_v89 (ix2 ((((cfg6.win 3).blk t).view.emb (ix2 p q)) 0) d)
    refine congrArg _ ?_
    funext a; apply Fin.ext
    match a with
    | ⟨0, _⟩ => show win6_0.index t (0 : Fin 2) * 2000 + 1 * p.val = win6_3.index t (0 : Fin 2) * 2000 + 1 * p.val; omega
    | ⟨1, _⟩ => show win6_0.index t (1 : Fin 2) * 128 + 1 * d.val = d.val; omega
  · intro d
    show V c main_arg4 (((cfg6.win 1).blk t).view.emb (ix2 d q)) = V c main_arg4 (ix2 d ((((cfg6.win 3).blk t).view.emb (ix2 p q)) 1))
    refine congrArg _ ?_
    funext a; apply Fin.ext
    match a with
    | ⟨0, _⟩ => show win6_1.index t (0 : Fin 2) * 128 + 1 * d.val = d.val; omega
    | ⟨1, _⟩ => show win6_1.index t (1 : Fin 2) * 64 + 1 * q.val = win6_3.index t (1 : Fin 2) * 64 + 1 * q.val; omega
  · show V c main_v90 (((cfg6.win 2).blk t).view.emb (ix2 (0 : Fin 1) q)) = V c main_v90 (ix2 (0 : Fin 1) ((((cfg6.win 3).blk t).view.emb (ix2 p q)) 1))
    refine congrArg _ ?_
    funext a; apply Fin.ext
    match a with
    | ⟨0, _⟩ => show win6_2.index t (0 : Fin 2) * 1 + 1 * 0 = 0; omega
    | ⟨1, _⟩ => show win6_2.index t (1 : Fin 2) * 64 + 1 * q.val = win6_3.index t (1 : Fin 2) * 64 + 1 * q.val; omega

/-- An index of the array is in point t's block iff each coordinate is in the block's range on its axis. -/
theorem mem_blk (t : Fin cfg6.N) (i : S50000x64.Idx) :
    i ∈ ((cfg6.win 3).blk t).view.set ↔ ∀ a : Fin 2, win6_3.index t a * S2000x64.size a ≤ (i a).val ∧ (i a).val < win6_3.index t a * S2000x64.size a + S2000x64.size a := by
  show i ∈ ((View.whole main_v91).slice (win6_3.rect t)).set ↔ _
  rw [View.set_slice_whole, Rect.mem_set_unit]
  exact Iff.rfl

/-- Every index of the array is in the block of the point numbered by its row divided by the block's 2000 rows. -/
theorem cover (i : S50000x64.Idx) :
    ∃ t : Fin cfg6.N, (cfg6.win 3).flush t = true ∧ i ∈ ((cfg6.win 3).blk t).view.set := by
  have hi0 : (i 0).val < 50000 := (i 0).isLt
  have hi1 : (i 1).val < 64 := (i 1).isLt
  have hN : grid6.N = 25 := N_6
  obtain ⟨t, ht⟩ : ∃ t : Fin cfg6.N, t.val = (i 0).val / 2000 := ⟨⟨(i 0).val / 2000, by show _ < grid6.N; rw [hN]; omega⟩, rfl⟩
  obtain ⟨e0, e1, e2, e3, e4, e5, e6, e7⟩ := idx_facts t
  refine ⟨t, flush6_3 t, ?_⟩
  rw [mem_blk]
  intro a
  match a with
  | ⟨0, _⟩ => show win6_3.index t (0 : Fin 2) * 2000 ≤ (i 0).val ∧ (i 0).val < win6_3.index t (0 : Fin 2) * 2000 + 2000; omega
  | ⟨1, _⟩ => show win6_3.index t (1 : Fin 2) * 64 ≤ (i 1).val ∧ (i 1).val < win6_3.index t (1 : Fin 2) * 64 + 64; omega

/-- The output array after the region: every node's row against the weight matrix, plus the bias row. -/
theorem value (c : Dev nD) :
    (dat6 (F := Ideal) V c).arrAt 3 cfg6.N = Cert.Gcn.head (V c main_v89) (V c main_arg4) (V c main_v90) :=
  (dat6 (F := Ideal) V c).arrAt_eq_of_cover 3 (Cert.Gcn.head (V c main_v89) (V c main_arg4) (V c main_v90)) (fun t _ => flushed_eq V c t) cover

end Cert.KernelIdeal.Head6

end
-- ==== Proof.KernelWalk.lean ====
/-
  The fold of the program's segments read back at the result buffer. Between two regions the host operations keep
  the buffers computed once up front (the edge list with its self loops, the edge weights) and the stacked
  arguments; each region's output array is the dense stage of its input arrays (the region modules), and each host
  stretch hands the next region the aggregation along the edges and the layer's bias row (the host-side module). Read
  in order, the result buffer holds the three layers and the head applied to the six arguments.
-/
import proofs.«143285_j55765855371408_1_alg».proof.Proof.Gen.KernelIdeal.Frame
import proofs.«143285_j55765855371408_1_alg».proof.Proof.HostSide
import proofs.«143285_j55765855371408_1_alg».proof.Proof.Lin0
import proofs.«143285_j55765855371408_1_alg».proof.Proof.Lin2
import proofs.«143285_j55765855371408_1_alg».proof.Proof.Lin4
import proofs.«143285_j55765855371408_1_alg».proof.Proof.Bias1
import proofs.«143285_j55765855371408_1_alg».proof.Proof.Bias3
import proofs.«143285_j55765855371408_1_alg».proof.Proof.Bias5
import proofs.«143285_j55765855371408_1_alg».proof.Proof.Head6

set_option maxRecDepth 16384

noncomputable section

namespace Cert.KernelIdeal.Walk

open Cert.KernelIdeal Cert.KernelIdeal.Gen Cert.KernelIdeal.HostSide Cert.Gcn.Chain
open Idealize.ShloMosaic Idealize.ShloMosaic.TcCoe Idealize.SL.Sem

variable (m : (ℓ : Loc nD τ sig) → Buf (Elt Ideal) ℓ) (ρ : Dev nD → PrngReg) (c : Dev nD)

/-! ## What is carried from the first host stretches to the last region -/

/-- At the first region's entry the carried buffers hold the edge list, the edge weights and the stacked arguments. -/
theorem carriedW3 : Carried (m ((c : Thread nD τ).loc main_arg1)) (m ((c : Thread nD τ).loc main_arg2)) (m ((c : Thread nD τ).loc main_arg3)) (m ((c : Thread nD τ).loc main_arg4)) (m ((c : Thread nD τ).loc main_arg5)) (W3 m ρ c) :=
  pre_carried (W0 m ρ c)

/-- Region 0 writes none of the carried buffers. -/
theorem carriedW4 {ei ws bs wl bl} (h : Carried ei ws bs wl bl (W3 m ρ c)) : Carried ei ws bs wl bl (W4 m ρ c) :=
  ⟨(W4_of_ne m ρ c main_v3 (by decide)).trans h.src, (W4_of_ne m ρ c main_v6 (by decide)).trans h.dst, (W4_of_ne m ρ c main_v29 (by decide)).trans h.nrm, (W4_of_ne m ρ c main_arg2 (by decide)).trans h.ws, (W4_of_ne m ρ c main_arg3 (by decide)).trans h.bs, (W4_of_ne m ρ c main_arg4 (by decide)).trans h.wl, (W4_of_ne m ρ c main_arg5 (by decide)).trans h.bl⟩

theorem carriedW5 : Carried (m ((c : Thread nD τ).loc main_arg1)) (m ((c : Thread nD τ).loc main_arg2)) (m ((c : Thread nD τ).loc main_arg3)) (m ((c : Thread nD τ).loc main_arg4)) (m ((c : Thread nD τ).loc main_arg5)) (W5 m ρ c) := (carriedW4 m ρ c (carriedW3 m ρ c)).h1
/-- Region 1 writes none of the carried buffers. -/
theorem carriedW6 {ei ws bs wl bl} (h : Carried ei ws bs wl bl (W5 m ρ c)) : Carried ei ws bs wl bl (W6 m ρ c) :=
  ⟨(W6_of_ne m ρ c main_v3 (by decide)).trans h.src, (W6_of_ne m ρ c main_v6 (by decide)).trans h.dst, (W6_of_ne m ρ c main_v29 (by decide)).trans h.nrm, (W6_of_ne m ρ c main_arg2 (by decide)).trans h.ws, (W6_of_ne m ρ c main_arg3 (by decide)).trans h.bs, (W6_of_ne m ρ c main_arg4 (by decide)).trans h.wl, (W6_of_ne m ρ c main_arg5 (by decide)).trans h.bl⟩

theorem carriedW7 : Carried (m ((c : Thread nD τ).loc main_arg1)) (m ((c : Thread nD τ).loc main_arg2)) (m ((c : Thread nD τ).loc main_arg3)) (m ((c : Thread nD τ).loc main_arg4)) (m ((c : Thread nD τ).loc main_arg5)) (W7 m ρ c) := (carriedW6 m ρ c (carriedW5 m ρ c)).h2
/-- Region 2 writes none of the carried buffers. -/
theorem carriedW8 {ei ws bs wl bl} (h : Carried ei ws bs wl bl (W7 m ρ c)) : Carried ei ws bs wl bl (W8 m ρ c) :=
  ⟨(W8_of_ne m ρ c main_v3 (by decide)).trans h.src, (W8_of_ne m ρ c main_v6 (by decide)).trans h.dst, (W8_of_ne m ρ c main_v29 (by decide)).trans h.nrm, (W8_of_ne m ρ c main_arg2 (by decide)).trans h.ws, (W8_of_ne m ρ c main_arg3 (by decide)).trans h.bs, (W8_of_ne m ρ c main_arg4 (by decide)).trans h.wl, (W8_of_ne m ρ c main_arg5 (by decide)).trans h.bl⟩

theorem carriedW9 : Carried (m ((c : Thread nD τ).loc main_arg1)) (m ((c : Thread nD τ).loc main_arg2)) (m ((c : Thread nD τ).loc main_arg3)) (m ((c : Thread nD τ).loc main_arg4)) (m ((c : Thread nD τ).loc main_arg5)) (W9 m ρ c) := (carriedW8 m ρ c (carriedW7 m ρ c)).h3
/-- Region 3 writes none of the carried buffers. -/
theorem carriedW10 {ei ws bs wl bl} (h : Carried ei ws bs wl bl (W9 m ρ c)) : Carried ei ws bs wl bl (W10 m ρ c) :=
  ⟨(W10_of_ne m ρ c main_v3 (by decide)).trans h.src, (W10_of_ne m ρ c main_v6 (by decide)).trans h.dst, (W10_of_ne m ρ c main_v29 (by decide)).trans h.nrm, (W10_of_ne m ρ c main_arg2 (by decide)).trans h.ws, (W10_of_ne m ρ c main_arg3 (by decide)).trans h.bs, (W10_of_ne m ρ c main_arg4 (by decide)).trans h.wl, (W10_of_ne m ρ c main_arg5 (by decide)).trans h.bl⟩

theorem carriedW11 : Carried (m ((c : Thread nD τ).loc main_arg1)) (m ((c : Thread nD τ).loc main_arg2)) (m ((c : Thread nD τ).loc main_arg3)) (m ((c : Thread nD τ).loc main_arg4)) (m ((c : Thread nD τ).loc main_arg5)) (W11 m ρ c) := (carriedW10 m ρ c (carriedW9 m ρ c)).h4
/-- Region 4 writes none of the carried buffers. -/
theorem carriedW12 {ei ws bs wl bl} (h : Carried ei ws bs wl bl (W11 m ρ c)) : Carried ei ws bs wl bl (W12 m ρ c) :=
  ⟨(W12_of_ne m ρ c main_v3 (by decide)).trans h.src, (W12_of_ne m ρ c main_v6 (by decide)).trans h.dst, (W12_of_ne m ρ c main_v29 (by decide)).trans h.nrm, (W12_of_ne m ρ c main_arg2 (by decide)).trans h.ws, (W12_of_ne m ρ c main_arg3 (by decide)).trans h.bs, (W12_of_ne m ρ c main_arg4 (by decide)).trans h.wl, (W12_of_ne m ρ c main_arg5 (by decide)).trans h.bl⟩

theorem carriedW13 : Carried (m ((c : Thread nD τ).loc main_arg1)) (m ((c : Thread nD τ).loc main_arg2)) (m ((c : Thread nD τ).loc main_arg3)) (m ((c : Thread nD τ).loc main_arg4)) (m ((c : Thread nD τ).loc main_arg5)) (W13 m ρ c) := (carriedW12 m ρ c (carriedW11 m ρ c)).h5
/-- Region 5 writes none of the carried buffers. -/
theorem carriedW14 {ei ws bs wl bl} (h : Carried ei ws bs wl bl (W13 m ρ c)) : Carried ei ws bs wl bl (W14 m ρ c) :=
  ⟨(W14_of_ne m ρ c main_v3 (by decide)).trans h.src, (W14_of_ne m ρ c main_v6 (by decide)).trans h.dst, (W14_of_ne m ρ c main_v29 (by decide)).trans h.nrm, (W14_of_ne m ρ c main_arg2 (by decide)).trans h.ws, (W14_of_ne m ρ c main_arg3 (by decide)).trans h.bs, (W14_of_ne m ρ c main_arg4 (by decide)).trans h.wl, (W14_of_ne m ρ c main_arg5 (by decide)).trans h.bl⟩

theorem carriedW15 : Carried (m ((c : Thread nD τ).loc main_arg1)) (m ((c : Thread nD τ).loc main_arg2)) (m ((c : Thread nD τ).loc main_arg3)) (m ((c : Thread nD τ).loc main_arg4)) (m ((c : Thread nD τ).loc main_arg5)) (W15 m ρ c) := (carriedW14 m ρ c (carriedW13 m ρ c)).h6

/-! ## The layers, one region and one host stretch at a time -/

/-- Region 0 leaves the first projection of the input features. -/
theorem atW4 : W4 m ρ c (Proc.devRef .tc main_v32) = Cert.Gcn.lin (m ((c : Thread nD τ).loc main_arg0)) (weight0 (m ((c : Thread nD τ).loc main_arg2))) := by
  refine (W4_arr m ρ c 2).trans ?_
  rw [Cert.KernelIdeal.Lin0.value (V3 m ρ) c]
  show Cert.Gcn.lin (W3 m ρ c (Proc.devRef .tc main_arg0)) (W3 m ρ c (Proc.devRef .tc main_v31)) = _
  rw [show W3 m ρ c (Proc.devRef .tc main_arg0) = m ((c : Thread nD τ).loc main_arg0) from pre_x (W0 m ρ c),
      show W3 m ρ c (Proc.devRef .tc main_v31) = weight0 (m ((c : Thread nD τ).loc main_arg2)) from pre_w (W0 m ρ c)]

/-- Region 1 leaves the first layer's output. -/
theorem atW6 : W6 m ρ c (Proc.devRef .tc main_v49) = (layerKer (srcOf (m ((c : Thread nD τ).loc main_arg1))) (dstOf (m ((c : Thread nD τ).loc main_arg1))) (Cert.Gcn.Chain.norm (srcOf (m ((c : Thread nD τ).loc main_arg1))) (dstOf (m ((c : Thread nD τ).loc main_arg1)))) (m ((c : Thread nD τ).loc main_arg0)) (weight0 (m ((c : Thread nD τ).loc main_arg2))) (bias0 (m ((c : Thread nD τ).loc main_arg3)))) := by
  refine (W6_arr m ρ c 2).trans ?_
  rw [Cert.KernelIdeal.Bias1.value (V5 m ρ) c]
  show Cert.Gcn.biasRelu (W5 m ρ c (Proc.devRef .tc main_v45)) (W5 m ρ c (Proc.devRef .tc main_v48)) = _
  rw [show W5 m ρ c (Proc.devRef .tc main_v45) = _ from h1_agg (carriedW4 m ρ c (carriedW3 m ρ c)),
      show W5 m ρ c (Proc.devRef .tc main_v48) = _ from h1_row (carriedW4 m ρ c (carriedW3 m ρ c)), atW4]
  rfl

/-- Region 2 leaves the second projection. -/
theorem atW8 : W8 m ρ c (Proc.devRef .tc main_v52) = Cert.Gcn.lin (layerKer (srcOf (m ((c : Thread nD τ).loc main_arg1))) (dstOf (m ((c : Thread nD τ).loc main_arg1))) (Cert.Gcn.Chain.norm (srcOf (m ((c : Thread nD τ).loc main_arg1))) (dstOf (m ((c : Thread nD τ).loc main_arg1)))) (m ((c : Thread nD τ).loc main_arg0)) (weight0 (m ((c : Thread nD τ).loc main_arg2))) (bias0 (m ((c : Thread nD τ).loc main_arg3)))) (weight1 (m ((c : Thread nD τ).loc main_arg2))) := by
  refine (W8_arr m ρ c 2).trans ?_
  rw [Cert.KernelIdeal.Lin2.value (V7 m ρ) c]
  show Cert.Gcn.lin (W7 m ρ c (Proc.devRef .tc main_v49)) (W7 m ρ c (Proc.devRef .tc main_v51)) = _
  rw [show W7 m ρ c (Proc.devRef .tc main_v49) = _ from h2_x (W6 m ρ c),
      show W7 m ρ c (Proc.devRef .tc main_v51) = _ from h2_w (carriedW6 m ρ c (carriedW5 m ρ c)), atW6]

/-- Region 3 leaves the second layer's output. -/
theorem atW10 : W10 m ρ c (Proc.devRef .tc main_v69) = (layerKer (srcOf (m ((c : Thread nD τ).loc main_arg1))) (dstOf (m ((c : Thread nD τ).loc main_arg1))) (Cert.Gcn.Chain.norm (srcOf (m ((c : Thread nD τ).loc main_arg1))) (dstOf (m ((c : Thread nD τ).loc main_arg1)))) (layerKer (srcOf (m ((c : Thread nD τ).loc main_arg1))) (dstOf (m ((c : Thread nD τ).loc main_arg1))) (Cert.Gcn.Chain.norm (srcOf (m ((c : Thread nD τ).loc main_arg1))) (dstOf (m ((c : Thread nD τ).loc main_arg1)))) (m ((c : Thread nD τ).loc main_arg0)) (weight0 (m ((c : Thread nD τ).loc main_arg2))) (bias0 (m ((c : Thread nD τ).loc main_arg3)))) (weight1 (m ((c : Thread nD τ).loc main_arg2))) (bias1 (m ((c : Thread nD τ).loc main_arg3)))) := by
  refine (W10_arr m ρ c 2).trans ?_
  rw [Cert.KernelIdeal.Bias3.value (V9 m ρ) c]
  show Cert.Gcn.biasRelu (W9 m ρ c (Proc.devRef .tc main_v65)) (W9 m ρ c (Proc.devRef .tc main_v68)) = _
  rw [show W9 m ρ c (Proc.devRef .tc main_v65) = _ from h3_agg (carriedW8 m ρ c (carriedW7 m ρ c)),
      show W9 m ρ c (Proc.devRef .tc main_v68) = _ from h3_row (carriedW8 m ρ c (carriedW7 m ρ c)), atW8]
  rfl

/-- Region 4 leaves the third projection. -/
theorem atW12 : W12 m ρ c (Proc.devRef .tc main_v72) = Cert.Gcn.lin (layerKer (srcOf (m ((c : Thread nD τ).loc main_arg1))) (dstOf (m ((c : Thread nD τ).loc main_arg1))) (Cert.Gcn.Chain.norm (srcOf (m ((c : Thread nD τ).loc main_arg1))) (dstOf (m ((c : Thread nD τ).loc main_arg1)))) (layerKer (srcOf (m ((c : Thread nD τ).loc main_arg1))) (dstOf (m ((c : Thread nD τ).loc main_arg1))) (Cert.Gcn.Chain.norm (srcOf (m ((c : Thread nD τ).loc main_arg1))) (dstOf (m ((c : Thread nD τ).loc main_arg1)))) (m ((c : Thread nD τ).loc main_arg0)) (weight0 (m ((c : Thread nD τ).loc main_arg2))) (bias0 (m ((c : Thread nD τ).loc main_arg3)))) (weight1 (m ((c : Thread nD τ).loc main_arg2))) (bias1 (m ((c : Thread nD τ).loc main_arg3)))) (weight2 (m ((c : Thread nD τ).loc main_arg2))) := by
  refine (W12_arr m ρ c 2).trans ?_
  rw [Cert.KernelIdeal.Lin4.value (V11 m ρ) c]
  show Cert.Gcn.lin (W11 m ρ c (Proc.devRef .tc main_v69)) (W11 m ρ c (Proc.devRef .tc main_v71)) = _
  rw [show W11 m ρ c (Proc.devRef .tc main_v69) = _ from h4_x (W10 m ρ c),
      show W11 m ρ c (Proc.devRef .tc main_v71) = _ from h4_w (carriedW10 m ρ c (carriedW9 m ρ c)), atW10]

/-- Region 5 leaves the third layer's output. -/
theorem atW14 : W14 m ρ c (Proc.devRef .tc main_v89) = (layerKer (srcOf (m ((c : Thread nD τ).loc main_arg1))) (dstOf (m ((c : Thread nD τ).loc main_arg1))) (Cert.Gcn.Chain.norm (srcOf (m ((c : Thread nD τ).loc main_arg1))) (dstOf (m ((c : Thread nD τ).loc main_arg1)))) (layerKer (srcOf (m ((c : Thread nD τ).loc main_arg1))) (dstOf (m ((c : Thread nD τ).loc main_arg1))) (Cert.Gcn.Chain.norm (srcOf (m ((c : Thread nD τ).loc main_arg1))) (dstOf (m ((c : Thread nD τ).loc main_arg1)))) (layerKer (srcOf (m ((c : Thread nD τ).loc main_arg1))) (dstOf (m ((c : Thread nD τ).loc main_arg1))) (Cert.Gcn.Chain.norm (srcOf (m ((c : Thread nD τ).loc main_arg1))) (dstOf (m ((c : Thread nD τ).loc main_arg1)))) (m ((c : Thread nD τ).loc main_arg0)) (weight0 (m ((c : Thread nD τ).loc main_arg2))) (bias0 (m ((c : Thread nD τ).loc main_arg3)))) (weight1 (m ((c : Thread nD τ).loc main_arg2))) (bias1 (m ((c : Thread nD τ).loc main_arg3)))) (weight2 (m ((c : Thread nD τ).loc main_arg2))) (bias2 (m ((c : Thread nD τ).loc main_arg3)))) := by
  refine (W14_arr m ρ c 2).trans ?_
  rw [Cert.KernelIdeal.Bias5.value (V13 m ρ) c]
  show Cert.Gcn.biasRelu (W13 m ρ c (Proc.devRef .tc main_v85)) (W13 m ρ c (Proc.devRef .tc main_v88)) = _
  rw [show W13 m ρ c (Proc.devRef .tc main_v85) = _ from h5_agg (carriedW12 m ρ c (carriedW11 m ρ c)),
      show W13 m ρ c (Proc.devRef .tc main_v88) = _ from h5_row (carriedW12 m ρ c (carriedW11 m ρ c)), atW12]
  rfl

/-- Region 6 leaves the head of the third layer's output: the program's result. -/
theorem result : W16 m ρ c (Proc.devRef .tc main_v91) = kerTerm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W16_arr m ρ c 3).trans ?_
  rw [Cert.KernelIdeal.Head6.value (V15 m ρ) c]
  show Cert.Gcn.head (W15 m ρ c (Proc.devRef .tc main_v89)) (W15 m ρ c (Proc.devRef .tc main_arg4)) (W15 m ρ c (Proc.devRef .tc main_v90)) = _
  rw [show W15 m ρ c (Proc.devRef .tc main_v89) = _ from h6_x (W14 m ρ c),
      (carriedW15 m ρ c).wl,
      show W15 m ρ c (Proc.devRef .tc main_v90) = _ from h6_row (carriedW14 m ρ c (carriedW13 m ρ c)), atW14]
  rfl

end Cert.KernelIdeal.Walk

end
-- ==== Proof.RefValue.lean ====
/-
  The reference's composed result term is the named composition: three layers (project, aggregate along the edges,
  add the bias, maximum with zero) and the head, over the edge list, the edge weights and the slices of the stacks.
  Both sides are the same operations in the same order; only the names differ.
-/
import proofs.«143285_j55765855371408_1_alg».proof.Proof.RefRun
import proofs.«143285_j55765855371408_1_alg».proof.Proof.Chain

set_option maxRecDepth 16384

noncomputable section

namespace Cert.Gcn.RefValue

open Cert.ReferenceIdeal Cert.ReferenceIdeal.Gen Cert.Gcn.Chain Idealize.ShloMosaic Idealize.ShloMosaic.TcCoe Idealize.SL.Sem

/-- The reference's result, as its run states it, is `refTerm` of the six argument arrays. -/
theorem res_eq (m : (ℓ : Loc nD τ sig) → Buf (Elt Ideal) ℓ) (c : Dev nD) :
    Cert.ReferenceIdeal.ValueP.res_main_v99 (F := Ideal) m c
      = refTerm (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold Cert.ReferenceIdeal.ValueP.res_main_v99 refTerm headRef layerRef agg Cert.Gcn.Chain.norm dinv deg wrap srcOf dstOf weight0 weight1 weight2 bias0 bias1 bias2
  rfl

end Cert.Gcn.RefValue

end
-- ==== Proof.LibHostRead.lean ====
/-
  Reads of host operations at an index, at the exact extended-real values, for rank-2 arrays: a `dot_general`
  that contracts the second axis of its left operand with the first axis of its right operand is, at entry
  `(p, q)`, the sum over the contracted coordinate of the products; a bias of length `b` broadcast first to a row
  `[1, b]` and then down `a` rows reads its own entry `q`; a scalar broadcast to any shape reads the scalar; a
  slice of `w` columns starting at column `o` reads column `o + q`; and the word of the float one is the real one.
-/
import Idealize.ShloMosaic.PureOps.Ideal.Laws
import Idealize.ShloMosaic.Lib.Pipeline.Value
import Idealize.ShloMosaic.Lib.ValueIdx

noncomputable section

open scoped BigOperators

namespace Cert.HostRead

open Idealize.ShloMosaic Idealize.ShloMosaic.ValueIdx

/-- A host product contracting axis 1 of the left operand with axis 0 of the right one, read at `(p, q)`. -/
theorem dotGeneral_ix2_apply {a k b : ℕ} {φ₁ φ₂ : FTy} (D : DotDims ⟨2, ![a, k]⟩ ⟨2, ![k, b]⟩ ⟨2, ![a, b]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (x : FVec Ideal ⟨2, ![a, k]⟩ φ₁) (w : FVec Ideal ⟨2, ![k, b]⟩ φ₂)
    (p : Fin a) (q : Fin b) :
    Host.dotGeneral D prec x w (ix2 p q) = ∑ d : Fin k, x (ix2 p d) * w (ix2 d q) := by
  obtain ⟨lc, rc, ln, rn, lb, rb, wf⟩ := D
  dsimp only at hlc hrc hln hrn hlb hrb
  subst hlc hrc hln hrn hlb hrb
  refine (Ideal.dotGeneral_apply _ prec .single x w (ix2 p q)).trans ?_
  refine (Equiv.sum_comp (contrEquiv1 _ k rfl rfl).symm _).symm.trans ?_
  refine Finset.sum_congr rfl fun d _ => ?_
  refine congrArg₂ (· * ·) (congrArg x (funext fun ax => Fin.ext ?_)) (congrArg w (funext fun ax => Fin.ext ?_))
  · match ax with
    | ⟨0, _⟩ => rfl
    | ⟨1, _⟩ => exact (DotDims.lhsIdx_val_of_single _ rfl _ _).trans (contrEquiv1_symm_val _ k rfl rfl d)
  · match ax with
    | ⟨0, _⟩ => exact (DotDims.rhsIdx_val_of_single _ rfl _ _).trans (contrEquiv1_symm_val _ k rfl rfl d)
    | ⟨1, _⟩ => rfl

/-- A bias broadcast to a row and then down the rows reads its own entry. -/
theorem bias_rows_apply {α : Type} {a b : ℕ} (h1 : (⟨1, ![b]⟩ : Shape).BroadcastsInDim ⟨2, ![1, b]⟩ ![1])
    (h2 : (⟨2, ![1, b]⟩ : Shape).BroadcastsInDim ⟨2, ![a, b]⟩ ![0, 1]) (x : (⟨1, ![b]⟩ : Shape).Idx → α)
    (p : Fin a) (q : Fin b) :
    broadcastInDim ⟨2, ![a, b]⟩ ![0, 1] h2 (broadcastInDim ⟨2, ![1, b]⟩ ![1] h1 x) (ix2 p q) = x (ix1 q) := by
  unfold broadcastInDim
  refine congrArg x (funext fun ax => Fin.ext ?_)
  match ax with
  | ⟨0, _⟩ =>
    by_cases hb : b = 1
    · subst hb; simp [ix1, ix2]
    · simp [ix1, ix2, hb]; rfl

/-- A scalar broadcast to any shape reads the scalar. -/
theorem scalar_bcast_apply {α : Type} {t : Shape} (h : (⟨0, ![]⟩ : Shape).BroadcastsInDim t ![])
    (x : (⟨0, ![]⟩ : Shape).Idx → α) (j : t.Idx) : broadcastInDim t ![] h x j = x ix0 := by
  unfold broadcastInDim
  exact congrArg x (funext fun ax => ax.elim0)

/-- A slice of `w` columns from column `o` on, all rows, reads column `o + q`. -/
theorem cols_apply {α : Type} {a n w : ℕ} (o : ℕ) (h : (⟨2, ![a, n]⟩ : Shape).Slices ![0, o] ⟨2, ![a, w]⟩)
    (x : (⟨2, ![a, n]⟩ : Shape).Idx → α) (p : Fin a) (q : Fin w) (ho : o + q.val < n) :
    extractStridedSlice ⟨2, ![a, w]⟩ ![0, o] x h (ix2 p q) = x (ix2 p ⟨o + q.val, ho⟩) := by
  refine extractStridedSlice_apply ![0, o] x h (ix2 p q) (ix2 p ⟨o + q.val, ho⟩) fun ax => ?_
  match ax with
  | ⟨0, _⟩ => show p.val = 0 + p.val; omega
  | ⟨1, _⟩ => rfl

/-- The word of the float one denotes the real one. -/
theorem ofBits_one_f32 : Ideal.ofBits .f32 0x3F800000#32 = 1 := by
  simp [Ideal.ofBits, Ideal.ieee, -EReal.coe_mul]
  norm_num

end Cert.HostRead

end
-- ==== Proof.RefBridge.lean ====
/-
  The reference's dense stages, read entry by entry: the host product that contracts the second axis of its
  left operand with the first axis of its right operand is the sum of products; a bias vector broadcast to a
  row and down the rows, added, then the maximum with the zero array, is the bias row added to every row and
  cut off at zero. With these the reference's layers and head are the entry-by-entry ones over the same host side.
-/
import proofs.«143285_j55765855371408_1_alg».proof.Proof.Chain
import proofs.«143285_j55765855371408_1_alg».proof.Proof.LibHostRead
import Idealize.ShloMosaic.Lib.ValueIdx
import Idealize.ShloMosaic.Lib.ValueLayout
import Idealize.ShloMosaic.Lib.Pipeline.Value

noncomputable section

open scoped BigOperators

namespace Cert.Gcn.Bridge

open Cert.ReferenceIdeal Cert.ReferenceIdeal.Gen Idealize.ShloMosaic Idealize.ShloMosaic.ValueIdx Idealize.SL.Sem

/-- The host product contracting axis 1 with axis 0 is, entry by entry, the sum over the contracted
    coordinate of the products. -/
theorem dot_eq_lin (x : (⟨S50000x128, .f32⟩ : BufTy).Contents (Elt Ideal)) (w : (⟨S128x128, .f32⟩ : BufTy).Contents (Elt Ideal)) :
    Host.dotGeneral (F := Ideal) (φ₁ := .f32) (φ₂ := .f32) dot_S50000x128_S128x128_S50000x128_1_0_0_1_n_n none x w = Cert.Gcn.lin x w := by
  funext i
  obtain ⟨p, q, rfl⟩ : ∃ (p : Fin 50000) (q : Fin 128), i = ix2 p q := ⟨i 0, i 1, eq_ix2 i⟩
  exact Cert.HostRead.dotGeneral_ix2_apply dot_S50000x128_S128x128_S50000x128_1_0_0_1_n_n rfl rfl rfl rfl rfl rfl none x w p q

/-- A bias vector broadcast to every row and added, then the maximum with the zero array: entry (n, q) is
    the maximum of a (n, q) + b q and zero, with b read as a one-row array. -/
theorem relu_eq (a : (⟨S50000x128, .f32⟩ : BufTy).Contents (Elt Ideal)) (b : (⟨S128, .f32⟩ : BufTy).Contents (Elt Ideal)) :
    maximumf (addf a (broadcastInDim S50000x128 ![0, 1] bcast_S1x128_S50000x128_0_1 (broadcastInDim S1x128 ![1] bcast_S128_S1x128_1 b))) (broadcastInDim S50000x128 ![] bcast_S_S50000x128 (constant S_ .f32 0x00000000#32))
      = Cert.Gcn.biasRelu a (Cert.Gcn.Chain.rowOf b) := by
  funext i
  obtain ⟨p, q, rfl⟩ : ∃ (p : Fin 50000) (q : Fin 128), i = ix2 p q := ⟨i 0, i 1, eq_ix2 i⟩
  unfold Cert.Gcn.biasRelu Cert.Gcn.Chain.rowOf
  rw [maximumf_apply, addf_apply, Cert.HostRead.bias_rows_apply, Cert.HostRead.scalar_bcast_apply, constant_apply]
  show max (a (ix2 p q) + b (ix1 q)) _ = max (a (ix2 p q) + shapeCast S1x128 b _ (ix2 (0 : Fin 1) q)) _
  rw [shapeCast_a_1a_apply]

/-- The reference's head is the entry-by-entry one: the sum of products plus the bias row's entry. -/
theorem head_eq (x : (⟨S50000x128, .f32⟩ : BufTy).Contents (Elt Ideal)) (wl : (⟨S128x64, .f32⟩ : BufTy).Contents (Elt Ideal)) (bl : (⟨S64, .f32⟩ : BufTy).Contents (Elt Ideal)) :
    Cert.Gcn.Chain.headRef x wl bl = Cert.Gcn.head x wl (Cert.Gcn.Chain.rowOfl bl) := by
  funext i
  obtain ⟨p, q, rfl⟩ : ∃ (p : Fin 50000) (q : Fin 64), i = ix2 p q := ⟨i 0, i 1, eq_ix2 i⟩
  unfold Cert.Gcn.Chain.headRef Cert.Gcn.head Cert.Gcn.Chain.rowOfl
  rw [addf_apply, Cert.HostRead.bias_rows_apply,
    Cert.HostRead.dotGeneral_ix2_apply dot_S50000x128_S128x64_S50000x64_1_0_0_1_n_n rfl rfl rfl rfl rfl rfl none x wl p q]
  show _ + bl (ix1 q) = _ + shapeCast S1x64 bl _ (ix2 (0 : Fin 1) q)
  rw [shapeCast_a_1a_apply]

/-- The reference's layer is the entry-by-entry one over the same aggregation. -/
theorem layer_eq (src dst : (⟨S850000, .i32⟩ : BufTy).Contents (Elt Ideal)) (nrm : (⟨S850000, .f32⟩ : BufTy).Contents (Elt Ideal)) (x : (⟨S50000x128, .f32⟩ : BufTy).Contents (Elt Ideal)) (w : (⟨S128x128, .f32⟩ : BufTy).Contents (Elt Ideal)) (b : (⟨S128, .f32⟩ : BufTy).Contents (Elt Ideal)) :
    Cert.Gcn.Chain.layerRef src dst nrm x w b = Cert.Gcn.Chain.layerKer src dst nrm x w b := by
  unfold Cert.Gcn.Chain.layerRef Cert.Gcn.Chain.layerKer
  rw [dot_eq_lin, relu_eq]

/-- The reference's whole result is the entry-by-entry network over the same host side. -/
theorem ref_eq_ker (x : (⟨S50000x128, .f32⟩ : BufTy).Contents (Elt Ideal)) (ei : (⟨S2x800000, .i32⟩ : BufTy).Contents (Elt Ideal)) (ws : (⟨S3x128x128, .f32⟩ : BufTy).Contents (Elt Ideal)) (bs : (⟨S3x128, .f32⟩ : BufTy).Contents (Elt Ideal)) (wl : (⟨S128x64, .f32⟩ : BufTy).Contents (Elt Ideal)) (bl : (⟨S64, .f32⟩ : BufTy).Contents (Elt Ideal)) :
    Cert.Gcn.Chain.refTerm x ei ws bs wl bl = Cert.Gcn.Chain.kerTerm x ei ws bs wl bl := by
  unfold Cert.Gcn.Chain.refTerm Cert.Gcn.Chain.kerTerm
  simp only [layer_eq, head_eq]

end Cert.Gcn.Bridge

end
-- ==== Proof.lean ====
/-
  The certificate of the three-layer graph convolution network against its reference.

  Both programs compute, for node features x, an edge list, stacked layer weights and biases and a head:
  three times  x ← max (A · (x · Wₖ) + bₖ, 0),  then  x · Wl + bl,  where A is the normalised adjacency with
  self loops applied as gather · scale · scatter-add. The kernel program runs the dense stages (x · Wₖ, the bias
  and maximum, the head) as seven tiled regions of 25 row blocks each and leaves the sparse stage to the same host
  operations the reference uses. At the extended reals the casts to a narrower float format are the identity and
  a block of a matrix product is the matching block of the whole product, so each region's output array is the dense
  stage of its whole input arrays (Lin0/2/4, Bias1/3/5, Head6); the host operations between the regions are read
  back as the named functions of Chain.lean (HostSide, KernelWalk); the reference's composed term is the same
  composition with the library's dot_general, broadcast, add and maximum in place of the entry-by-entry stages
  (RefValue), and these agree entry by entry (RefBridge). No algebraic law beyond reading both sides at an index is
  used, so the finiteness of the inputs is never opened. The idealization rewrote nothing, so `preserves` is `True`.
  The three frames are the generated frame certificates (the reference's: its run with the result dropped).
-/
import proofs.«143285_j55765855371408_1_alg».proof.Defs
import proofs.«143285_j55765855371408_1_alg».proof.Proof.Gen.Kernel
import proofs.«143285_j55765855371408_1_alg».proof.Proof.Gen.Kernel.Skeleton
import proofs.«143285_j55765855371408_1_alg».proof.Proof.Gen.Kernel.Launch
import proofs.«143285_j55765855371408_1_alg».proof.Proof.Gen.Kernel.Points
import proofs.«143285_j55765855371408_1_alg».proof.Proof.Gen.Kernel.Frame
import proofs.«143285_j55765855371408_1_alg».proof.Proof.Gen.KernelIdeal
import proofs.«143285_j55765855371408_1_alg».proof.Proof.Gen.KernelIdeal.Skeleton
import proofs.«143285_j55765855371408_1_alg».proof.Proof.Gen.KernelIdeal.Launch
import proofs.«143285_j55765855371408_1_alg».proof.Proof.Gen.KernelIdeal.Points
import proofs.«143285_j55765855371408_1_alg».proof.Proof.Gen.KernelIdeal.Frame
import proofs.«143285_j55765855371408_1_alg».proof.Proof.Gen.ReferenceIdeal
import proofs.«143285_j55765855371408_1_alg».proof.Proof.Gen.Pre_finite_inputs
import proofs.«143285_j55765855371408_1_alg».proof.Proof.KernelRun
import proofs.«143285_j55765855371408_1_alg».proof.Proof.KernelWalk
import proofs.«143285_j55765855371408_1_alg».proof.Proof.RefRun
import proofs.«143285_j55765855371408_1_alg».proof.Proof.RefValue
import proofs.«143285_j55765855371408_1_alg».proof.Proof.RefBridge
import Idealize.ShloMosaic.Adequacy
import Idealize.ShloMosaic.Init

noncomputable section

namespace Cert.Proof

open Idealize.ShloMosaic Idealize.ShloMosaic.TcCoe Idealize.SL.Sem

/-- The kernel program as printed runs to its end without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_reference : Cert.frame_ReferenceIdeal := fun m ρ _ =>
  (θ_run Cert.ReferenceIdeal.defs _ _).mono (fun _ h c => (h c).2) (Cert.ReferenceIdeal.ValueP.run (F := Ideal) m ρ)

/-- From memories agreeing on the six arguments both programs end with the result array at the three layers and the
    head of the arguments: the kernel's segments read back, the reference's composed term, and the two compositions
    equal entry by entry. -/
theorem algebraic : Cert.algebraic_KernelIdeal_ReferenceIdeal := by
  intro m ρ m' ρ' _ hagree
  refine ⟨fun c => Cert.Gcn.Chain.kerTerm (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Walk.result m ρ c), (h c).2⟩)
      (Cert.KernelIdeal.Run.run_main (F := Ideal) m ρ)
  · refine (θ_run Cert.ReferenceIdeal.defs _ _).mono (fun _ h c => ⟨(h c).1.trans ?_, (h c).2⟩)
      (Cert.ReferenceIdeal.ValueP.run (F := Ideal) m' ρ')
    rw [Cert.Gcn.RefValue.res_eq, Cert.Gcn.Bridge.ref_eq_ker, (hagree c).1, (hagree c).2.1, (hagree c).2.2.1,
      (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
